-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S768x64 : Shape := ⟨2, ![768, 64]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S768x64 : S_.BroadcastsInDim S768x64 (![] : Fin 0 → Fin S768x64.rank)
  reducesTo_S768x64_S_d0_1 : S768x64.ReducesTo [0, 1] S_

variable [Facts]

def fn_part1 {F : FTy → Type} [FloatOps F] (main_v13 : IVec S_ 1) (main_v16 : IVec S768x64 1) : IVec S_ 1 :=
  let main_c_5 : IVec S_ 1 := constantI S_ 1 1#1
  let main_v17 : IVec S_ 1 := (fun x v => Host.reduce IntOp.andi x v reducesTo_S768x64_S_d0_1 h_S_) main_v16 main_c_5
  let main_v18 : IVec S_ 1 := andi main_v13 main_v17
  main_v18

def fn {F : FTy → Type} [FloatOps F] (main_arg0 : FVec F S8x2048x768 .f32) (main_arg1 : FVec F S768x64 .f32) (main_arg2 : FVec F S768x64 .f32) (main_arg3 : FVec F S768x64 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S768x64 .f32 := Host.absf main_arg1
  let main_cst_0 : FVec F S_ .f32 := constant S_ .f32 0x7F800000#32
  let main_v5 : FVec F S768x64 .f32 := broadcastInDim S768x64 ![] bcast_S_S768x64 main_cst_0
  let main_v6 : IVec S768x64 1 := cmpf .olt main_v4 main_v5
  let main_c_1 : IVec S_ 1 := constantI S_ 1 1#1
  let main_v7 : IVec S_ 1 := (fun x v => Host.reduce IntOp.andi x v reducesTo_S768x64_S_d0_1 h_S_) main_v6 main_c_1
  let main_v8 : IVec S_ 1 := andi main_v3 main_v7
  let main_v9 : FVec F S768x64 .f32 := Host.absf main_arg2
  let main_cst_2 : FVec F S_ .f32 := constant S_ .f32 0x7F800000#32
  let main_v10 : FVec F S768x64 .f32 := broadcastInDim S768x64 ![] bcast_S_S768x64 main_cst_2
  let main_v11 : IVec S768x64 1 := cmpf .olt main_v9 main_v10
  let main_c_3 : IVec S_ 1 := constantI S_ 1 1#1
  let main_v12 : IVec S_ 1 := (fun x v => Host.reduce IntOp.andi x v reducesTo_S768x64_S_d0_1 h_S_) main_v11 main_c_3
  let main_v13 : IVec S_ 1 := andi main_v8 main_v12
  let main_v14 : FVec F S768x64 .f32 := Host.absf main_arg3
  let main_cst_4 : FVec F S_ .f32 := constant S_ .f32 0x7F800000#32
  let main_v15 : FVec F S768x64 .f32 := broadcastInDim S768x64 ![] bcast_S_S768x64 main_cst_4
  let main_v16 : IVec S768x64 1 := cmpf .olt main_v14 main_v15
  fn_part1 (F := F) main_v13 main_v16
-- ==== Kernel.lean ====
abbrev S8x2048x768 : Shape := ⟨3, ![8, 2048, 768]⟩
abbrev S768x64 : Shape := ⟨2, ![768, 64]⟩
abbrev S768x192 : Shape := ⟨2, ![768, 192]⟩
abbrev S8x2048x64 : Shape := ⟨3, ![8, 2048, 64]⟩
abbrev S1x2048x768 : Shape := ⟨3, ![1, 2048, 768]⟩
abbrev S1x2048x64 : Shape := ⟨3, ![1, 2048, 64]⟩
abbrev S2048x768 : Shape := ⟨2, ![2048, 768]⟩
abbrev S2048x192 : Shape := ⟨2, ![2048, 192]⟩
abbrev S2048x64 : Shape := ⟨2, ![2048, 64]⟩
abbrev S64x2048 : Shape := ⟨2, ![64, 2048]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩
abbrev S1x512x64 : Shape := ⟨3, ![1, 512, 64]⟩

abbrev nBuf : Space → Nat
  | .hbm => 6
  | .vmem => 5
  | .smem => 0
  | _ => 0

abbrev bufTy : (tb : Table) → Fin (tcTables nBuf tb) → BufTy
  | .hbm, ⟨0, _⟩ => ⟨S8x2048x768, .f32⟩
  | .hbm, ⟨1, _⟩ => ⟨S768x64, .f32⟩
  | .hbm, ⟨2, _⟩ => ⟨S768x64, .f32⟩
  | .hbm, ⟨3, _⟩ => ⟨S768x64, .f32⟩
  | .hbm, ⟨4, _⟩ => ⟨S768x192, .f32⟩
  | .hbm, ⟨5, _⟩ => ⟨S8x2048x64, .f32⟩
  | .local _ .vmem, ⟨0, _⟩ => ⟨S1x2048x768, .f32⟩
  | .local _ .vmem, ⟨1, _⟩ => ⟨S1x2048x768, .f32⟩
  | .local _ .vmem, ⟨2, _⟩ => ⟨S768x192, .f32⟩
  | .local _ .vmem, ⟨3, _⟩ => ⟨S1x2048x64, .f32⟩
  | .local _ .vmem, ⟨4, _⟩ => ⟨S1x2048x64, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S768x64_S768x64_S768x64_S768x192_d1 : Shape.Concatenates [S768x64, S768x64, S768x64] S768x192 1
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  bitsLt_bf16_f32 : FTy.bits .bf16 < FTy.bits .f32
  inb_S768x192_S768x192_0_0 : ∀ a, (![0, 0] : Fin 2 → Nat) a + S768x192.size a ≤ S768x192.size a
  h_S768x192 : 0 < S768x192.numel
  shapeCasts_S768x192_S768x192 : S768x192.ShapeCasts S768x192
  slices_S2048x192_o0_0_S2048x64 : S2048x192.Slices ![0, 0] S2048x64
  slices_S2048x192_o0_64_S2048x64 : S2048x192.Slices ![0, 64] S2048x64
  slices_S2048x192_o0_128_S2048x64 : S2048x192.Slices ![0, 128] S2048x64
  transposes_S2048x64_p1_0_S64x2048 : S2048x64.Transposes [1, 0] S64x2048
  slices_S2048x64_o0_0_S512x64 : S2048x64.Slices ![0, 0] S512x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  inb_S1x2048x64_S1x512x64_0_0_0 : ∀ a, (![0, 0, 0] : Fin 3 → Nat) a + S1x512x64.size a ≤ S1x2048x64.size a
  h_S1x512x64 : 0 < S1x512x64.numel
  shapeCasts_S1x512x64_S512x64 : S1x512x64.ShapeCasts S512x64
  shapeCasts_S512x64_S1x512x64 : S512x64.ShapeCasts S1x512x64
  slices_S2048x64_o512_0_S512x64 : S2048x64.Slices ![512, 0] S512x64
  inb_S1x2048x64_S1x512x64_0_512_0 : ∀ a, (![0, 512, 0] : Fin 3 → Nat) a + S1x512x64.size a ≤ S1x2048x64.size a
  slices_S2048x64_o1024_0_S512x64 : S2048x64.Slices ![1024, 0] S512x64
  inb_S1x2048x64_S1x512x64_0_1024_0 : ∀ a, (![0, 1024, 0] : Fin 3 → Nat) a + S1x512x64.size a ≤ S1x2048x64.size a
  slices_S2048x64_o1536_0_S512x64 : S2048x64.Slices ![1536, 0] S512x64
  inb_S1x2048x64_S1x512x64_0_1536_0 : ∀ a, (![0, 1536, 0] : Fin 3 → Nat) a + S1x512x64.size a ≤ S1x2048x64.size a
  dot_S2048x768_S768x192_S2048x192_1_0_0_1_n_n_wf : DotDims.WF S2048x768 S768x192 S2048x192 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x768.size a ≤ S8x2048x768.size a
  hwx0_0 : ∀ i : grid0.Coords, EltTy.bits .f32 = 32 ∨ (Rect.block (s := S8x2048x768) S1x2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x192.size a ≤ S768x192.size a
  hwx0_1 : ∀ i : grid0.Coords, EltTy.bits .f32 = 32 ∨ (Rect.block (s := S768x192) S768x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S8x2048x64.size a
  hwx0_2 : ∀ i : grid0.Coords, EltTy.bits .f32 = 32 ∨ (Rect.block (s := S8x2048x64) S1x2048x64.size (cc0_transform_2 i) (hinb0_2 i)).WholeWords (EltTy.packing .f32)

variable [Facts₀]

def dot_S2048x768_S768x192_S2048x192_1_0_0_1_n_n : DotDims S2048x768 S768x192 S2048x192 where
  lhsContracting := [1]
  rhsContracting := [0]
  lhsNonContracting := [0]
  rhsNonContracting := [1]
  lhsBatch := []
  rhsBatch := []
  wf := dot_S2048x768_S768x192_S2048x192_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x768 : Shape := ⟨3, ![8, 2048, 768]⟩
abbrev S768x64 : Shape := ⟨2, ![768, 64]⟩
abbrev S8x2048x64 : Shape := ⟨3, ![8, 2048, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S768x64, .f32⟩
  | .hbm, ⟨2, _⟩ => ⟨S768x64, .f32⟩
  | .hbm, ⟨3, _⟩ => ⟨S768x64, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S8x2048x64, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x768_S768x64_S8x2048x64_2_0_01_1_n_n_wf : DotDims.WF S8x2048x768 S768x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x768_S768x64_S8x2048x64_2_0_01_1_n_n : DotDims S8x2048x768 S768x64 S8x2048x64 where
  lhsContracting := [2]
  rhsContracting := [0]
  lhsNonContracting := [0, 1]
  rhsNonContracting := [1]
  lhsBatch := []
  rhsBatch := []
  wf := dot_S8x2048x768_S768x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.FrameDefsK.lean ====
/-
  The data of the launch of the attention kernel's one region, at any float instance.

  When the region is entered every buffer holds what the one host operation before it (the concatenation of the
  three projection weights) leaves: `V`.  A window's block at a grid point is read off that; after the body at
  point `t` the two input windows' staging buffers still hold their blocks and the output window's buffer holds
  `out2` of them: the four row tiles of 512 rows, each the stored value of its tile as a function of the loaded
  input block and the loaded weight block.
-/
import proofs.«129632_j81063212745013_2_alg».proof.Proof.Gen.Kernel.Launch
import proofs.«129632_j81063212745013_2_alg».proof.Proof.Gen.Kernel.Skeleton
import proofs.«129632_j81063212745013_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- Core `c`'s buffers when the region is entered: after the host operation before it. -/
abbrev V (c : Dev nD) (b : Ref sig .tc) : Buf (Elt F) ((c : Thread nD τ).loc b) := StableHlo.after hostOps0 (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The rectangles the body loads and stores through: the two whole input blocks, and the four row tiles of the
    output block. -/
abbrev rx : Rect S1x2048x768 := Rect.unit (s := S1x2048x768) ![0, 0, 0] S1x2048x768.size inb_S1x2048x768_S1x2048x768_0_0_0
abbrev rw : Rect S768x192 := Rect.unit (s := S768x192) ![0, 0] S768x192.size inb_S768x192_S768x192_0_0
abbrev ro0 : Rect S1x2048x64 := Rect.unit (s := S1x2048x64) ![0, 0, 0] S1x512x64.size inb_S1x2048x64_S1x512x64_0_0_0
abbrev ro1 : Rect S1x2048x64 := Rect.unit (s := S1x2048x64) ![0, 512, 0] S1x512x64.size inb_S1x2048x64_S1x512x64_0_512_0
abbrev ro2 : Rect S1x2048x64 := Rect.unit (s := S1x2048x64) ![0, 1024, 0] S1x512x64.size inb_S1x2048x64_S1x512x64_0_1024_0
abbrev ro3 : Rect S1x2048x64 := Rect.unit (s := S1x2048x64) ![0, 1536, 0] S1x512x64.size inb_S1x2048x64_S1x512x64_0_1536_0

/-- The value stored into each of the four row tiles, from the loaded input block `v0` and weight block `v3`. -/
def tile0 (v0 : Vec F S1x2048x768 .f32) (v3 : Vec F S768x192 .f32) : FVec F S1x512x64 .f32 := k0_pay6 v0 v3
def tile1 (v0 : Vec F S1x2048x768 .f32) (v3 : Vec F S768x192 .f32) : FVec F S1x512x64 .f32 :=
  k0_pay9 (k0_pay4 v0 v3) (k0_pay7 v0 v3) (k0_pay8 v0 v3)
def tile2 (v0 : Vec F S1x2048x768 .f32) (v3 : Vec F S768x192 .f32) : FVec F S1x512x64 .f32 :=
  k0_pay10 (k0_pay3 v0 v3) (k0_pay4 v0 v3) (k0_pay5 v0 v3)
def tile3 (v0 : Vec F S1x2048x768 .f32) (v3 : Vec F S768x192 .f32) : FVec F S1x512x64 .f32 :=
  k0_pay1 (k0_pay4 v0 v3) (k0_pay11 (k0_pay3 v0 v3) (k0_pay5 v0 v3)) (k0_pay12 (k0_pay3 v0 v3) (k0_pay5 v0 v3))

/-- The output window's staging buffer after the body, from the input windows' blocks: its four stores as pieces,
    last first. -/
def out2 (x0 : Vec F S1x2048x768 .f32) (x1 : Vec F S768x192 .f32) : Vec F S1x2048x64 .f32 :=
  View.canon [⟨ro3, tile3 (View.ld x0 rx) (View.ld x1 rw)⟩,
    ⟨ro2, tile2 (View.ld x0 rx) (View.ld x1 rw)⟩,
    ⟨ro1, tile1 (View.ld x0 rx) (View.ld x1 rw)⟩,
    ⟨ro0, tile0 (View.ld x0 rx) (View.ld x1 rw)⟩]

/-- The proof data of the one pipeline on core `c`: the arrays as the region finds them; after the body at point
    `t` each input's buffer at its block and the output's at `out2` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 (iblk m c 0 t) (iblk m c 1 t) := by dsimp only [dats]

end Cert.Kernel.Hand

end
-- ==== Proof.FrameK.lean ====
/-
  The frame of the attention kernel's program, at any float instance: the program runs (it terminates and nothing
  faults) and its four argument arrays end as they began.

  @main is one host operation, the concatenation of the three projection weights into one array, and then one
  region on a grid of 8 points, one per batch element. The concatenation writes its own result and nothing else,
  so the region finds the four arguments as launched. The region's pipeline has three windows: the input block
  [1,2048,768] of the point's batch element, fetched at every point; the whole concatenated weight [768,192],
  fetched at the first point and kept in place afterwards; and the output block [1,2048,64], written back at
  every point. Of the four arguments only the input array is the array of a window, and the pipeline only reads
  it; the three weights bypass the region and are read back as the region found them.

  What remains is the body's triple at a point. The body loads the two input blocks whole, and then four times
  loads a row tile [1,512,64] of the output buffer (a value it never uses) and stores that tile. The four tiles
  start at rows 0, 512, 1024 and 1536 and have 512 rows each: they are pairwise disjoint and their sizes add up
  to the block's 2048 rows, so every element of the output block is written by exactly one store. Hence what the
  output buffer holds afterwards is a function of the two loaded blocks alone (each element is the value of the
  one tile that contains it), whatever the buffer held before and whatever the four unused loads read.
-/
import proofs.«129632_j81063212745013_2_alg».proof.Defs
import proofs.«129632_j81063212745013_2_alg».proof.Proof.FrameDefsK

-- membership in a rectangle of these extents: the structural recursion goes once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host operation allocates nothing. -/
theorem hostOps0_fresh : (hostOps0 : List (HloOp τ sig (Elt F))).Forall fun op => op.fresh = ∅ := by
  simp only [List.Forall]; repeat' constructor

/-- @main up to the region: the concatenation, then the region, which finds every buffer at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenation writes its own result only: the region finds `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, Finset.mem_singleton]
    exact StableHlo.devRef_ne_of_ne (by decide)))
/-- and `main_arg1`, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, Finset.mem_singleton]
    exact StableHlo.devRef_ne_of_ne (by decide)))
/-- and `main_arg2`, -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, Finset.mem_singleton]
    exact StableHlo.devRef_ne_of_ne (by decide)))
/-- and `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, Finset.mem_singleton]
    exact StableHlo.devRef_ne_of_ne (by decide)))

/-! ## What the body finds in the input windows' buffers -/

/-- The input block's buffer holds the point's block at every point: it is fetched at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight's buffer holds the weight block at every point, fetched there or not: the body leaves it in place and
    its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run whose final state has every array of the
    pipeline at what the pipeline computes and every other unscoped buffer as the region found it ends with the four
    arguments as launched: the input array is only read by its window, the three weights bypass the region, and the
    host operation before the region wrote none of the four. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's stores cover the output block -/

/-- The four row tiles are pairwise disjoint and their sizes add up to the block's: every element of the block lies
    in one of them. -/
theorem cover0_2 (p0 p1 p2 p3 : Vec F S1x512x64 .f32) (y : S1x2048x64.Idx) :
    ∃ pc ∈ ([⟨ro3, p0⟩, ⟨ro2, p1⟩, ⟨ro1, p2⟩, ⟨ro0, p3⟩] : List (View.Piece (Elt F) S1x2048x64 .f32)), y ∈ pc.1.set :=
  View.cover_of_tiled [⟨ro3, p0⟩, ⟨ro2, p1⟩, ⟨ro1, p2⟩, ⟨ro0, p3⟩] S1x512x64.size (by rfl) y

/-! ## The body's triple -/

set_option maxHeartbeats 1000000 in
/-- The kernel body on whole staging memrefs, the two inputs' at contents `x0`, `x1` and the output's at anything, runs
    to the continuation holding the inputs' as they were and the output's at `out2 x0 x1`: the four stores cover the
    buffer, so nothing of its earlier contents (which the four unused loads read) is left. -/
theorem sound_kernel (c : Dev nD) (E : Set ℕ) (i : grid0.Coords)
    (arg1 : Memref sig .tc .vmem S1x2048x768 .f32) (harg1 : arg1.IsWhole)
    (arg2 : Memref sig .tc .vmem S768x192 .f32) (harg2 : arg2.IsWhole)
    (arg3 : Memref sig .tc .vmem S1x2048x64 .f32) (harg3 : arg3.IsWhole)
    (x0 : Vec F S1x2048x768 .f32) (x1 : Vec F S768x192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__fused_kernel i arg1 harg1 arg2 harg2 arg3 harg3) K := by
  simp only [cc0__fused_kernel_eq_skeleton]; unfold cc0__fused_kernel_skel
  simp only [k0_part1_eq_skeleton, k0_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _ _)

/-! ## The body obligation, at a generic point -/

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the pipeline computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the program runs and its four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.FrameDefsI.lean ====
/-
  The data of the launch of the attention kernel's one region, at any float instance.

  When the region is entered every buffer holds what the one host operation before it (the concatenation of the
  three projection weights) leaves: `V`.  A window's block at a grid point is read off that; after the body at
  point `t` the two input windows' staging buffers still hold their blocks and the output window's buffer holds
  `out2` of them: the four row tiles of 512 rows, each the stored value of its tile as a function of the loaded
  input block and the loaded weight block.
-/
import proofs.«129632_j81063212745013_2_alg».proof.Proof.Gen.KernelIdeal.Launch
import proofs.«129632_j81063212745013_2_alg».proof.Proof.Gen.KernelIdeal.Skeleton
import proofs.«129632_j81063212745013_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- Core `c`'s buffers when the region is entered: after the host operation before it. -/
abbrev V (c : Dev nD) (b : Ref sig .tc) : Buf (Elt F) ((c : Thread nD τ).loc b) := StableHlo.after hostOps0 (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The rectangles the body loads and stores through: the two whole input blocks, and the four row tiles of the
    output block. -/
abbrev rx : Rect S1x2048x768 := Rect.unit (s := S1x2048x768) ![0, 0, 0] S1x2048x768.size inb_S1x2048x768_S1x2048x768_0_0_0
abbrev rw : Rect S768x192 := Rect.unit (s := S768x192) ![0, 0] S768x192.size inb_S768x192_S768x192_0_0
abbrev ro0 : Rect S1x2048x64 := Rect.unit (s := S1x2048x64) ![0, 0, 0] S1x512x64.size inb_S1x2048x64_S1x512x64_0_0_0
abbrev ro1 : Rect S1x2048x64 := Rect.unit (s := S1x2048x64) ![0, 512, 0] S1x512x64.size inb_S1x2048x64_S1x512x64_0_512_0
abbrev ro2 : Rect S1x2048x64 := Rect.unit (s := S1x2048x64) ![0, 1024, 0] S1x512x64.size inb_S1x2048x64_S1x512x64_0_1024_0
abbrev ro3 : Rect S1x2048x64 := Rect.unit (s := S1x2048x64) ![0, 1536, 0] S1x512x64.size inb_S1x2048x64_S1x512x64_0_1536_0

/-- The value stored into each of the four row tiles, from the loaded input block `v0` and weight block `v3`. -/
def tile0 (v0 : Vec F S1x2048x768 .f32) (v3 : Vec F S768x192 .f32) : FVec F S1x512x64 .f32 := k0_pay6 v0 v3
def tile1 (v0 : Vec F S1x2048x768 .f32) (v3 : Vec F S768x192 .f32) : FVec F S1x512x64 .f32 :=
  k0_pay9 (k0_pay4 v0 v3) (k0_pay7 v0 v3) (k0_pay8 v0 v3)
def tile2 (v0 : Vec F S1x2048x768 .f32) (v3 : Vec F S768x192 .f32) : FVec F S1x512x64 .f32 :=
  k0_pay10 (k0_pay3 v0 v3) (k0_pay4 v0 v3) (k0_pay5 v0 v3)
def tile3 (v0 : Vec F S1x2048x768 .f32) (v3 : Vec F S768x192 .f32) : FVec F S1x512x64 .f32 :=
  k0_pay1 (k0_pay4 v0 v3) (k0_pay11 (k0_pay3 v0 v3) (k0_pay5 v0 v3)) (k0_pay12 (k0_pay3 v0 v3) (k0_pay5 v0 v3))

/-- The output window's staging buffer after the body, from the input windows' blocks: its four stores as pieces,
    last first. -/
def out2 (x0 : Vec F S1x2048x768 .f32) (x1 : Vec F S768x192 .f32) : Vec F S1x2048x64 .f32 :=
  View.canon [⟨ro3, tile3 (View.ld x0 rx) (View.ld x1 rw)⟩,
    ⟨ro2, tile2 (View.ld x0 rx) (View.ld x1 rw)⟩,
    ⟨ro1, tile1 (View.ld x0 rx) (View.ld x1 rw)⟩,
    ⟨ro0, tile0 (View.ld x0 rx) (View.ld x1 rw)⟩]

/-- The proof data of the one pipeline on core `c`: the arrays as the region finds them; after the body at point
    `t` each input's buffer at its block and the output's at `out2` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 (iblk m c 0 t) (iblk m c 1 t) := by dsimp only [dats]

end Cert.KernelIdeal.Hand

end
-- ==== Proof.FrameI.lean ====
/-
  The frame of the attention kernel's program, at any float instance: the program runs (it terminates and nothing
  faults) and its four argument arrays end as they began.

  @main is one host operation, the concatenation of the three projection weights into one array, and then one
  region on a grid of 8 points, one per batch element. The concatenation writes its own result and nothing else,
  so the region finds the four arguments as launched. The region's pipeline has three windows: the input block
  [1,2048,768] of the point's batch element, fetched at every point; the whole concatenated weight [768,192],
  fetched at the first point and kept in place afterwards; and the output block [1,2048,64], written back at
  every point. Of the four arguments only the input array is the array of a window, and the pipeline only reads
  it; the three weights bypass the region and are read back as the region found them.

  What remains is the body's triple at a point. The body loads the two input blocks whole, and then four times
  loads a row tile [1,512,64] of the output buffer (a value it never uses) and stores that tile. The four tiles
  start at rows 0, 512, 1024 and 1536 and have 512 rows each: they are pairwise disjoint and their sizes add up
  to the block's 2048 rows, so every element of the output block is written by exactly one store. Hence what the
  output buffer holds afterwards is a function of the two loaded blocks alone (each element is the value of the
  one tile that contains it), whatever the buffer held before and whatever the four unused loads read.
-/
import proofs.«129632_j81063212745013_2_alg».proof.Defs
import proofs.«129632_j81063212745013_2_alg».proof.Proof.FrameDefsI

-- membership in a rectangle of these extents: the structural recursion goes once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host operation allocates nothing. -/
theorem hostOps0_fresh : (hostOps0 : List (HloOp τ sig (Elt F))).Forall fun op => op.fresh = ∅ := by
  simp only [List.Forall]; repeat' constructor

/-- @main up to the region: the concatenation, then the region, which finds every buffer at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The concatenation writes its own result only: the region finds `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, Finset.mem_singleton]
    exact StableHlo.devRef_ne_of_ne (by decide)))
/-- and `main_arg1`, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, Finset.mem_singleton]
    exact StableHlo.devRef_ne_of_ne (by decide)))
/-- and `main_arg2`, -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, Finset.mem_singleton]
    exact StableHlo.devRef_ne_of_ne (by decide)))
/-- and `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, Finset.mem_singleton]
    exact StableHlo.devRef_ne_of_ne (by decide)))

/-! ## What the body finds in the input windows' buffers -/

/-- The input block's buffer holds the point's block at every point: it is fetched at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight's buffer holds the weight block at every point, fetched there or not: the body leaves it in place and
    its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run whose final state has every array of the
    pipeline at what the pipeline computes and every other unscoped buffer as the region found it ends with the four
    arguments as launched: the input array is only read by its window, the three weights bypass the region, and the
    host operation before the region wrote none of the four. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's stores cover the output block -/

/-- The four row tiles are pairwise disjoint and their sizes add up to the block's: every element of the block lies
    in one of them. -/
theorem cover0_2 (p0 p1 p2 p3 : Vec F S1x512x64 .f32) (y : S1x2048x64.Idx) :
    ∃ pc ∈ ([⟨ro3, p0⟩, ⟨ro2, p1⟩, ⟨ro1, p2⟩, ⟨ro0, p3⟩] : List (View.Piece (Elt F) S1x2048x64 .f32)), y ∈ pc.1.set :=
  View.cover_of_tiled [⟨ro3, p0⟩, ⟨ro2, p1⟩, ⟨ro1, p2⟩, ⟨ro0, p3⟩] S1x512x64.size (by rfl) y

/-! ## The body's triple -/

set_option maxHeartbeats 1000000 in
/-- The kernel body on whole staging memrefs, the two inputs' at contents `x0`, `x1` and the output's at anything, runs
    to the continuation holding the inputs' as they were and the output's at `out2 x0 x1`: the four stores cover the
    buffer, so nothing of its earlier contents (which the four unused loads read) is left. -/
theorem sound_kernel (c : Dev nD) (E : Set ℕ) (i : grid0.Coords)
    (arg1 : Memref sig .tc .vmem S1x2048x768 .f32) (harg1 : arg1.IsWhole)
    (arg2 : Memref sig .tc .vmem S768x192 .f32) (harg2 : arg2.IsWhole)
    (arg3 : Memref sig .tc .vmem S1x2048x64 .f32) (harg3 : arg3.IsWhole)
    (x0 : Vec F S1x2048x768 .f32) (x1 : Vec F S768x192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__fused_kernel i arg1 harg1 arg2 harg2 arg3 harg3) K := by
  simp only [cc0__fused_kernel_eq_skeleton]; unfold cc0__fused_kernel_skel
  simp only [k0_part1_eq_skeleton, k0_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _ _)

/-! ## The body obligation, at a generic point -/

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the pipeline computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the program runs and its four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.KOps.lean ====
/-
  The vector operations of the attention body read at one element, over the extended reals.

  Each lemma says what one operation of the body is at an index written by its coordinates: the three matrix
  products as sums over the contracted axis; the row maximum as a fold of `max` and the row sum as a sum over the
  2048 columns; a vector of 512 row values cast to a column, and a column broadcast along its rows.
-/
import proofs.«129632_j81063212745013_2_alg».proof.Proof.FrameDefsI
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KVal

open Idealize.ShloMosaic Idealize.ShloMosaic.ValueIdx Cert.KernelIdeal Cert.KernelIdeal.Gen

variable {φa φb : FTy}

theorem matmul_proj_apply_l0 (i : S2048x192.Idx) (q : dot_S2048x768_S768x192_S2048x192_1_0_0_1_n_n.contr.Idx) : (dot_S2048x768_S768x192_S2048x192_1_0_0_1_n_n.lhsIdx i q 0).val = (i 0).val := by
  unfold DotDims.lhsIdx
  rw [dif_neg (show ¬(0 : Fin S2048x768.rank) ∈ dot_S2048x768_S768x192_S2048x192_1_0_0_1_n_n.lhsBatch by decide), dif_pos (show (0 : Fin S2048x768.rank) ∈ dot_S2048x768_S768x192_S2048x192_1_0_0_1_n_n.lhsNonContracting by decide)]
  rfl
theorem matmul_proj_apply_l1 (i : S2048x192.Idx) (q : dot_S2048x768_S768x192_S2048x192_1_0_0_1_n_n.contr.Idx) : (dot_S2048x768_S768x192_S2048x192_1_0_0_1_n_n.lhsIdx i q 1).val = (q ⟨0, by decide⟩).val :=
  dot_S2048x768_S768x192_S2048x192_1_0_0_1_n_n.lhsIdx_val_of_single rfl i q
theorem matmul_proj_apply_r0 (i : S2048x192.Idx) (q : dot_S2048x768_S768x192_S2048x192_1_0_0_1_n_n.contr.Idx) : (dot_S2048x768_S768x192_S2048x192_1_0_0_1_n_n.rhsIdx i q 0).val = (q ⟨0, by decide⟩).val :=
  dot_S2048x768_S768x192_S2048x192_1_0_0_1_n_n.rhsIdx_val_of_single rfl i q
theorem matmul_proj_apply_r1 (i : S2048x192.Idx) (q : dot_S2048x768_S768x192_S2048x192_1_0_0_1_n_n.contr.Idx) : (dot_S2048x768_S768x192_S2048x192_1_0_0_1_n_n.rhsIdx i q 1).val = (i 1).val := by
  unfold DotDims.rhsIdx
  rw [dif_neg (show ¬(1 : Fin S768x192.rank) ∈ dot_S2048x768_S768x192_S2048x192_1_0_0_1_n_n.rhsBatch by decide), dif_pos (show (1 : Fin S768x192.rank) ∈ dot_S2048x768_S768x192_S2048x192_1_0_0_1_n_n.rhsNonContracting by decide)]
  rfl

/-- The matrix product of a `2048×768` by a `768×192` operand into a zero accumulator, at `(i, j)`: the sum over the
    contracted axis of the products. -/
theorem matmul_proj_apply (A : FVec Ideal S2048x768 φa) (B : FVec Ideal S768x192 φb) (i : Fin 2048) (j : Fin 192) :
    matmul dot_S2048x768_S768x192_S2048x192_1_0_0_1_n_n none A B (constant S2048x192 .f32 0x00000000#32) (ix2 i j)
      = ∑ k : Fin 768, A (ix2 i k) * B (ix2 k j) := by
  simp only [matmul]
  rw [Ideal.matmul_constant_zero_apply, ← Equiv.sum_comp (ValueIdx.contrEquiv1 dot_S2048x768_S768x192_S2048x192_1_0_0_1_n_n 768 rfl rfl).symm]
  refine Finset.sum_congr rfl fun k _ => ?_
  have hk := ValueIdx.contrEquiv1_symm_val dot_S2048x768_S768x192_S2048x192_1_0_0_1_n_n 768 rfl rfl k
  have el : dot_S2048x768_S768x192_S2048x192_1_0_0_1_n_n.lhsIdx (ix2 i j) ((ValueIdx.contrEquiv1 dot_S2048x768_S768x192_S2048x192_1_0_0_1_n_n 768 rfl rfl).symm k) = ix2 i k := funext fun a => Fin.ext (by
    match a with
    | ⟨0, _⟩ => exact matmul_proj_apply_l0 _ _
    | ⟨1, _⟩ => exact (matmul_proj_apply_l1 _ _).trans hk)
  have er : dot_S2048x768_S768x192_S2048x192_1_0_0_1_n_n.rhsIdx (ix2 i j) ((ValueIdx.contrEquiv1 dot_S2048x768_S768x192_S2048x192_1_0_0_1_n_n 768 rfl rfl).symm k) = ix2 k j := funext fun a => Fin.ext (by
    match a with
    | ⟨0, _⟩ => exact (matmul_proj_apply_r0 _ _).trans hk
    | ⟨1, _⟩ => exact matmul_proj_apply_r1 _ _)
  rw [el, er]

theorem matmul_score_apply_l0 (i : S512x2048.Idx) (q : dot_S512x64_S64x2048_S512x2048_1_0_0_1_n_n.contr.Idx) : (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem matmul_score_apply_l1 (i : S512x2048.Idx) (q : dot_S512x64_S64x2048_S512x2048_1_0_0_1_n_n.contr.Idx) : (dot_S512x64_S64x2048_S512x2048_1_0_0_1_n_n.lhsIdx i q 1).val = (q ⟨0, by decide⟩).val :=
  dot_S512x64_S64x2048_S512x2048_1_0_0_1_n_n.lhsIdx_val_of_single rfl i q
theorem matmul_score_apply_r0 (i : S512x2048.Idx) (q : dot_S512x64_S64x2048_S512x2048_1_0_0_1_n_n.contr.Idx) : (dot_S512x64_S64x2048_S512x2048_1_0_0_1_n_n.rhsIdx i q 0).val = (q ⟨0, by decide⟩).val :=
  dot_S512x64_S64x2048_S512x2048_1_0_0_1_n_n.rhsIdx_val_of_single rfl i q
theorem matmul_score_apply_r1 (i : S512x2048.Idx) (q : dot_S512x64_S64x2048_S512x2048_1_0_0_1_n_n.contr.Idx) : (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The matrix product of a `512×64` by a `64×2048` operand into a zero accumulator, at `(i, j)`: the sum over the
    contracted axis of the products. -/
theorem matmul_score_apply (A : FVec Ideal S512x64 φa) (B : FVec Ideal S64x2048 φb) (i : Fin 512) (j : Fin 2048) :
    matmul dot_S512x64_S64x2048_S512x2048_1_0_0_1_n_n none A B (constant S512x2048 .f32 0x00000000#32) (ix2 i j)
      = ∑ k : Fin 64, A (ix2 i k) * B (ix2 k j) := by
  simp only [matmul]
  rw [Ideal.matmul_constant_zero_apply, ← Equiv.sum_comp (ValueIdx.contrEquiv1 dot_S512x64_S64x2048_S512x2048_1_0_0_1_n_n 64 rfl rfl).symm]
  refine Finset.sum_congr rfl fun k _ => ?_
  have hk := ValueIdx.contrEquiv1_symm_val dot_S512x64_S64x2048_S512x2048_1_0_0_1_n_n 64 rfl rfl k
  have el : dot_S512x64_S64x2048_S512x2048_1_0_0_1_n_n.lhsIdx (ix2 i j) ((ValueIdx.contrEquiv1 dot_S512x64_S64x2048_S512x2048_1_0_0_1_n_n 64 rfl rfl).symm k) = ix2 i k := funext fun a => Fin.ext (by
    match a with
    | ⟨0, _⟩ => exact matmul_score_apply_l0 _ _
    | ⟨1, _⟩ => exact (matmul_score_apply_l1 _ _).trans hk)
  have er : dot_S512x64_S64x2048_S512x2048_1_0_0_1_n_n.rhsIdx (ix2 i j) ((ValueIdx.contrEquiv1 dot_S512x64_S64x2048_S512x2048_1_0_0_1_n_n 64 rfl rfl).symm k) = ix2 k j := funext fun a => Fin.ext (by
    match a with
    | ⟨0, _⟩ => exact (matmul_score_apply_r0 _ _).trans hk
    | ⟨1, _⟩ => exact matmul_score_apply_r1 _ _)
  rw [el, er]

theorem matmul_out_apply_l0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem matmul_out_apply_l1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem matmul_out_apply_r0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem matmul_out_apply_r1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The matrix product of a `512×2048` by a `2048×64` operand into a zero accumulator, at `(i, j)`: the sum over the
    contracted axis of the products. -/
theorem matmul_out_apply (A : FVec Ideal S512x2048 φa) (B : FVec Ideal S2048x64 φb) (i : Fin 512) (j : Fin 64) :
    matmul dot_S512x2048_S2048x64_S512x64_1_0_0_1_n_n none A B (constant S512x64 .f32 0x00000000#32) (ix2 i j)
      = ∑ k : Fin 2048, A (ix2 i k) * B (ix2 k j) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 i j) ((ValueIdx.contrEquiv1 dot_S512x2048_S2048x64_S512x64_1_0_0_1_n_n 2048 rfl rfl).symm k) = ix2 i k := funext fun a => Fin.ext (by
    match a with
    | ⟨0, _⟩ => exact matmul_out_apply_l0 _ _
    | ⟨1, _⟩ => exact (matmul_out_apply_l1 _ _).trans hk)
  have er : dot_S512x2048_S2048x64_S512x64_1_0_0_1_n_n.rhsIdx (ix2 i j) ((ValueIdx.contrEquiv1 dot_S512x2048_S2048x64_S512x64_1_0_0_1_n_n 2048 rfl rfl).symm k) = ix2 k j := funext fun a => Fin.ext (by
    match a with
    | ⟨0, _⟩ => exact (matmul_out_apply_r0 _ _).trans hk
    | ⟨1, _⟩ => exact matmul_out_apply_r1 _ _)
  rw [el, er]

variable {α : Type}

/-- A vector of 512 row values cast to a column reads, at `(r, 0)`, the vector at `r`. -/
theorem col_cast_apply (v : S512.Idx → α) (r : Fin 512) (z : Fin 1) :
    shapeCast S512x1 v shapeCasts_S512_S512x1 (ix2 r z) = v (ix1 r) :=
  shapeCast_apply v _ _ _ (by
    rw [Shape.rowMajor_val_one, Shape.rowMajor_val_two]
    show r.val = r.val * 1 + z.val
    omega)

/-- A column broadcast along 2048 columns reads, at `(r, u)`, the column at `(r, 0)`. -/
theorem col_bcast2048_apply (v : S512x1.Idx → α) (r : Fin 512) (u : Fin 2048) :
    broadcastTo S512x2048 v broadcasts_S512x1_S512x2048 (ix2 r u) = v (ix2 r (0 : Fin 1)) :=
  broadcastTo_apply v _ _ _ (fun a => by
    match a with
    | ⟨0, _⟩ => rfl
    | ⟨1, _⟩ => rfl)

/-- A column broadcast along 64 columns reads, at `(r, h)`, the column at `(r, 0)`. -/
theorem col_bcast64_apply (v : S512x1.Idx → α) (r : Fin 512) (h : Fin 64) :
    broadcastTo S512x64 v broadcasts_S512x1_S512x64 (ix2 r h) = v (ix2 r (0 : Fin 1)) :=
  broadcastTo_apply v _ _ _ (fun a => by
    match a with
    | ⟨0, _⟩ => rfl
    | ⟨1, _⟩ => rfl)

/-- The maximum along the columns, at row `r`: the fold of `max` from the accumulator's value over the 2048 columns. -/
theorem rowmax_apply (v : FVec Ideal S512x2048 .f32) (hφ : FKind.Formats .f32)
    (hacc : (0xFF800000#32 : BitVec 32) = FKind.maximumf.neutral .f32 hφ) (r : Fin 512) :
    multiReduction .maximumf [1] S512 v 0xFF800000#32 reduces_S512x2048_S512 hφ hacc (ix1 r)
      = (Finset.univ : Finset (Fin 2048)).fold max (Ideal.ofBits .f32 0xFF800000#32) (fun u => v (ix2 r u)) := by
  refine (Ideal.multiReduction_maximumf_single v 0xFF800000#32 reduces_S512x2048_S512 hφ hacc (ix1 r)).trans ?_
  refine congrArg (fun f => (Finset.univ : Finset (Fin 2048)).fold max (Ideal.ofBits .f32 0xFF800000#32) f) ?_
  funext u
  show v (reduces_S512x2048_S512.lift (ix1 r) u) = v (ix2 r u)
  refine congrArg v (funext fun a => Fin.ext ?_)
  match a with
  | ⟨0, _⟩ => rfl
  | ⟨1, _⟩ => rfl

/-- The sum along the columns, at row `r`. -/
theorem rowsum_apply (v : FVec Ideal S512x2048 .f32) (hφ : FKind.Formats .f32)
    (hacc : (0x00000000#32 : BitVec 32) = FKind.add.neutral .f32 hφ) (r : Fin 512) :
    multiReduction .add [1] S512 v 0x00000000#32 reduces_S512x2048_S512 hφ hacc (ix1 r)
      = ∑ u : Fin 2048, v (ix2 r u) := by
  refine (Ideal.multiReduction_add_single v 0x00000000#32 reduces_S512x2048_S512 hφ hacc (ix1 r)).trans ?_
  refine Finset.sum_congr rfl fun u _ => ?_
  refine congrArg v (funext fun a => Fin.ext ?_)
  match a with
  | ⟨0, _⟩ => rfl
  | ⟨1, _⟩ => rfl

end Cert.KernelIdeal.KVal

end
-- ==== Proof.Spec.lean ====
/-
  Single-head attention over the extended reals, index by index.

  For a batch `b`, a query row `t`, a key row `u` and a head column `h`:
  the projections `proj x w b t h = ∑ c, x[b,t,c] · w[c,h]`; the scaled scores
  `score b t u = (∑ h, q[b,t,h] · k[b,u,h]) · scale`; the row maximum `rowmax b t` as the fold of `max`
  from `-∞` over the key rows; the shifted exponentials `pexp b t u = exp (score b t u − rowmax b t)` and their
  row sum `lsum b t`.  The two programs differ only in where the normalization by `lsum` is applied:
  `outK` scales the weighted sum of the value rows by `1 / lsum` afterwards, `outR` divides every weight by
  `lsum` first.
-/
import Idealize.ShloMosaic.PureOps.Ideal
import Idealize.ShloMosaic.Lib.ValueIdx

noncomputable section

open scoped BigOperators

namespace Cert.Attn

open Idealize.ShloMosaic Idealize.ShloMosaic.ValueIdx

/-- The shapes of the argument arrays and of the result. -/
abbrev SX : Shape := ⟨3, ![8, 2048, 768]⟩
abbrev SW : Shape := ⟨2, ![768, 64]⟩
abbrev SO : Shape := ⟨3, ![8, 2048, 64]⟩

/-- The score scale (the binary value nearest 768^(-1/2)), `-∞`, and `1`, as the programs spell them. -/
def scale : EReal := Ideal.ofBits .f32 0x3D13CD3A#32
def negInf : EReal := Ideal.ofBits .f32 0xFF800000#32
def one : EReal := Ideal.ofBits .f32 0x3F800000#32

variable (x : SX.Idx → EReal) (w wq wk wv : SW.Idx → EReal)

/-- A projection of the input: row `t` of batch `b` times column `h` of the weight. -/
def proj (b : Fin 8) (t : Fin 2048) (h : Fin 64) : EReal :=
  ∑ c : Fin 768, x (ix3 b t c) * w (ix2 c h)

/-- The scaled score of query row `t` against key row `u`. -/
def score (b : Fin 8) (t u : Fin 2048) : EReal :=
  (∑ h : Fin 64, proj x wq b t h * proj x wk b u h) * scale

/-- The largest score of a query row. -/
def rowmax (b : Fin 8) (t : Fin 2048) : EReal :=
  (Finset.univ : Finset (Fin 2048)).fold max negInf (fun u => score x wq wk b t u)

/-- The exponential of a score shifted by its row's maximum. -/
def pexp (b : Fin 8) (t u : Fin 2048) : EReal :=
  Ideal.exp (score x wq wk b t u - rowmax x wq wk b t)

/-- The row sum of the shifted exponentials. -/
def lsum (b : Fin 8) (t : Fin 2048) : EReal :=
  ∑ u : Fin 2048, pexp x wq wk b t u

/-- Normalization after the weighted sum of the value rows. -/
def outK (b : Fin 8) (t : Fin 2048) (h : Fin 64) : EReal :=
  (∑ u : Fin 2048, pexp x wq wk b t u * proj x wv b u h) * Ideal.div one (lsum x wq wk b t)

/-- Normalization of every weight before the weighted sum. -/
def outR (b : Fin 8) (t : Fin 2048) (h : Fin 64) : EReal :=
  ∑ u : Fin 2048, Ideal.div (pexp x wq wk b t u) (lsum x wq wk b t) * proj x wv b u h

/-- The whole result array, in the first form. -/
def G : SO.Idx → EReal := fun i => outK x wq wk wv (i 0) (i 1) (i 2)

end Cert.Attn

end
-- ==== Proof.KTile.lean ====
/-
  One row tile of the attention body, as one function of the block's projections, and its value at an element.

  The body computes the fused projection `Q = x·[Wq|Wk|Wv]` of the batch's block once and then, for each tile of 512
  query rows starting at row `off`: the scores of the tile's rows against all 2048 key rows, scaled (`sc`); the row
  maximum (`mx`); the exponentials of the shifted scores (`pe`) and their row sum (`ls`); the product of the
  exponentials with the value rows, scaled by the reciprocal of the row sum (`attnTile`).  The four stored values of
  the body are `attnTile` at the offsets 0, 512, 1024 and 1536.  At an element `(0, r, h)` the tile is the
  specification's `outK` at query row `off + r`, once the three column bands of `Q` are the three projections.
-/
import proofs.«129632_j81063212745013_2_alg».proof.Proof.KOps
import proofs.«129632_j81063212745013_2_alg».proof.Proof.Spec

noncomputable section

open scoped BigOperators

namespace Cert.KernelIdeal.KVal

open Idealize.ShloMosaic Idealize.ShloMosaic.ValueIdx Cert.KernelIdeal Cert.KernelIdeal.Gen Cert.KernelIdeal.Hand

section Defs
variable {F : FTy → Type} [FloatOps F]

/-- The query, key and value rows of the block: the three column bands of the fused projection. -/
def qv (Q : FVec F S2048x192 .f32) : FVec F S2048x64 .bf16 :=
  truncf .bf16 (extractStridedSlice S2048x64 ![0, 0] Q slices_S2048x192_o0_0_S2048x64) bitsLt_bf16_f32
def kv (Q : FVec F S2048x192 .f32) : FVec F S2048x64 .bf16 :=
  truncf .bf16 (extractStridedSlice S2048x64 ![0, 64] Q slices_S2048x192_o0_64_S2048x64) bitsLt_bf16_f32
def vv (Q : FVec F S2048x192 .f32) : FVec F S2048x64 .bf16 :=
  truncf .bf16 (extractStridedSlice S2048x64 ![0, 128] Q slices_S2048x192_o0_128_S2048x64) bitsLt_bf16_f32
/-- The key rows transposed. -/
def kT (Q : FVec F S2048x192 .f32) : FVec F S64x2048 .bf16 :=
  transpose S64x2048 [1, 0] (kv Q) transposes_S2048x64_p1_0_S64x2048

/-- The scaled scores of the tile's 512 query rows against the 2048 key rows. -/
def sc (o : Fin 2 → Nat) (hs : S2048x64.Slices o S512x64) (Q : FVec F S2048x192 .f32) : FVec F S512x2048 .f32 :=
  mulf (matmul dot_S512x64_S64x2048_S512x2048_1_0_0_1_n_n none (extractStridedSlice S512x64 o (qv Q) hs) (kT Q)
      (constant S512x2048 .f32 0x00000000#32))
    (broadcast S512x2048 (Scalar.ofBits .f32 0x3D13CD3A#32))

/-- The row maxima of the scores, as a column. -/
def mx (o : Fin 2 → Nat) (hs : S2048x64.Slices o S512x64) (Q : FVec F S2048x192 .f32) : FVec F S512x1 .f32 :=
  shapeCast S512x1 (multiReduction .maximumf [1] S512 (sc o hs Q) 0xFF800000#32 reduces_S512x2048_S512 (.inl rfl) rfl)
    shapeCasts_S512_S512x1

/-- The exponentials of the scores shifted by their row maximum. -/
def pe (o : Fin 2 → Nat) (hs : S2048x64.Slices o S512x64) (Q : FVec F S2048x192 .f32) : FVec F S512x2048 .f32 :=
  exp (subf (sc o hs Q) (broadcastTo S512x2048 (mx o hs Q) broadcasts_S512x1_S512x2048))

/-- Their row sums, as a column. -/
def ls (o : Fin 2 → Nat) (hs : S2048x64.Slices o S512x64) (Q : FVec F S2048x192 .f32) : FVec F S512x1 .f32 :=
  shapeCast S512x1 (multiReduction .add [1] S512 (pe o hs Q) 0x00000000#32 reduces_S512x2048_S512 (.inl rfl) rfl)
    shapeCasts_S512_S512x1

/-- The stored value of the tile of 512 query rows that starts at row `o 0`, from the block's fused projection `Q`. -/
def attnTile (o : Fin 2 → Nat) (hs : S2048x64.Slices o S512x64) (Q : FVec F S2048x192 .f32) : FVec F S1x512x64 .f32 :=
  shapeCast S1x512x64
    (mulf (matmul dot_S512x2048_S2048x64_S512x64_1_0_0_1_n_n none (truncf .bf16 (pe o hs Q) bitsLt_bf16_f32) (vv Q)
        (constant S512x64 .f32 0x00000000#32))
      (broadcastTo S512x64 (divf (broadcast S512x1 (Scalar.ofBits .f32 0x3F800000#32)) (ls o hs Q)) broadcasts_S512x1_S512x64))
    shapeCasts_S512x64_S1x512x64

/-- The four stored values are the tiles at the four offsets, of the fused projection of the loaded blocks. -/
theorem tile0_eq (v0 : Vec F S1x2048x768 .f32) (v3 : Vec F S768x192 .f32) :
    tile0 v0 v3 = attnTile ![0, 0] slices_S2048x64_o0_0_S512x64 (k0_pay2 v0 v3) := rfl
theorem tile1_eq (v0 : Vec F S1x2048x768 .f32) (v3 : Vec F S768x192 .f32) :
    tile1 v0 v3 = attnTile ![512, 0] slices_S2048x64_o512_0_S512x64 (k0_pay2 v0 v3) := rfl
theorem tile2_eq (v0 : Vec F S1x2048x768 .f32) (v3 : Vec F S768x192 .f32) :
    tile2 v0 v3 = attnTile ![1024, 0] slices_S2048x64_o1024_0_S512x64 (k0_pay2 v0 v3) := rfl
theorem tile3_eq (v0 : Vec F S1x2048x768 .f32) (v3 : Vec F S768x192 .f32) :
    tile3 v0 v3 = attnTile ![1536, 0] slices_S2048x64_o1536_0_S512x64 (k0_pay2 v0 v3) := rfl

end Defs

/-! ## At an element, over the extended reals -/

section Apply
open Cert.Attn

variable (x : SX.Idx → EReal) (wq wk wv : SW.Idx → EReal) (b : Fin 8) (Q : FVec Ideal S2048x192 .f32)
  (hQq : ∀ (t : Fin 2048) (h : Fin 64) (k : Fin 192), k.val = 0 + h.val → Q (ix2 t k) = proj x wq b t h)
  (hQk : ∀ (t : Fin 2048) (h : Fin 64) (k : Fin 192), k.val = 64 + h.val → Q (ix2 t k) = proj x wk b t h)
  (hQv : ∀ (t : Fin 2048) (h : Fin 64) (k : Fin 192), k.val = 128 + h.val → Q (ix2 t k) = proj x wv b t h)

include hQq in
theorem qv_apply (t : Fin 2048) (h : Fin 64) : qv Q (ix2 t h) = proj x wq b t h :=
  (slice2_axis1_apply 0 Q slices_S2048x192_o0_0_S2048x64 t h ⟨h.val, by have := h.isLt; omega⟩ (Nat.zero_add _).symm).trans
    (hQq t h _ (Nat.zero_add _).symm)

include hQk in
theorem kv_apply (t : Fin 2048) (h : Fin 64) : kv Q (ix2 t h) = proj x wk b t h :=
  (slice2_axis1_apply 64 Q slices_S2048x192_o0_64_S2048x64 t h ⟨64 + h.val, by have := h.isLt; omega⟩ rfl).trans
    (hQk t h _ rfl)

include hQv in
theorem vv_apply (t : Fin 2048) (h : Fin 64) : vv Q (ix2 t h) = proj x wv b t h :=
  (slice2_axis1_apply 128 Q slices_S2048x192_o0_128_S2048x64 t h ⟨128 + h.val, by have := h.isLt; omega⟩ rfl).trans
    (hQv t h _ rfl)

include hQk in
theorem kT_apply (h : Fin 64) (u : Fin 2048) : kT Q (ix2 h u) = proj x wk b u h :=
  (transpose_ix2_apply (kv Q) transposes_S2048x64_p1_0_S64x2048 h u).trans (kv_apply x wk b Q hQk u h)

variable (off : Nat) (hs : S2048x64.Slices ![off, 0] S512x64) (r : Fin 512) (t : Fin 2048) (ht : t.val = off + r.val)

include hQq hQk ht in
theorem sc_apply (u : Fin 2048) : sc ![off, 0] hs Q (ix2 r u) = score x wq wk b t u := by
  unfold sc score scale
  rw [mulf_apply]
  refine congrArg₂ (· * ·) ?_ rfl
  refine (matmul_score_apply _ _ r u).trans (Finset.sum_congr rfl fun h _ => ?_)
  rw [kT_apply x wk b Q hQk h u]
  refine congrArg (· * _) ?_
  exact (slice2_axis0_apply off (qv Q) hs r h t ht).trans (qv_apply x wq b Q hQq t h)

include hQq hQk ht in
theorem mx_apply (z : Fin 1) : mx ![off, 0] hs Q (ix2 r z) = rowmax x wq wk b t := by
  unfold mx rowmax negInf
  refine (col_cast_apply _ r z).trans ?_
  refine (rowmax_apply _ _ _ r).trans ?_
  refine congrArg (fun f => (Finset.univ : Finset (Fin 2048)).fold max (Ideal.ofBits .f32 0xFF800000#32) f) ?_
  funext u
  exact sc_apply x wq wk b Q hQq hQk off hs r t ht u

include hQq hQk ht in
theorem pe_apply (u : Fin 2048) : pe ![off, 0] hs Q (ix2 r u) = pexp x wq wk b t u := by
  unfold pe pexp
  show Ideal.exp (sc ![off, 0] hs Q (ix2 r u) - broadcastTo S512x2048 (mx ![off, 0] hs Q) broadcasts_S512x1_S512x2048 (ix2 r u)) = _
  rw [col_bcast2048_apply, sc_apply x wq wk b Q hQq hQk off hs r t ht u, mx_apply x wq wk b Q hQq hQk off hs r t ht 0]

include hQq hQk ht in
theorem ls_apply (z : Fin 1) : ls ![off, 0] hs Q (ix2 r z) = lsum x wq wk b t := by
  unfold ls lsum
  refine (col_cast_apply _ r z).trans ?_
  refine (rowsum_apply _ _ _ r).trans (Finset.sum_congr rfl fun u _ => ?_)
  exact pe_apply x wq wk b Q hQq hQk off hs r t ht u

include hQq hQk hQv ht in
/-- The tile at an element is the specification's output at the tile's query row. -/
theorem attnTile_apply (h : Fin 64) :
    attnTile ![off, 0] hs Q (ix3 (0 : Fin 1) r h) = outK x wq wk wv b t h := by
  unfold attnTile outK
  refine (shapeCast_ab_1ab_apply _ shapeCasts_S512x64_S1x512x64 0 r h).trans ?_
  rw [mulf_apply]
  refine congrArg₂ (· * ·) ?_ ?_
  · refine (matmul_out_apply _ _ r h).trans (Finset.sum_congr rfl fun u _ => ?_)
    rw [vv_apply x wv b Q hQv u h]
    refine congrArg (· * _) ?_
    exact pe_apply x wq wk b Q hQq hQk off hs r t ht u
  · refine (col_bcast64_apply _ r h).trans ?_
    rw [divf_apply, ls_apply x wq wk b Q hQq hQk off hs r t ht 0]
    rfl

end Apply

end Cert.KernelIdeal.KVal

end
-- ==== Proof.KBlock.lean ====
/-
  The output block a grid point leaves, element by element.

  The body's fused projection of the loaded input block `x0` ([1, 2048, 768]) and the loaded weight block `x1`
  ([768, 192]) is, at `(t, j)`, the sum over the 768 channels of `x0[0, t, c] · x1[c, j]`.  When `x0` is batch `b`
  of the input array and the three column bands of `x1` are the query, key and value weights, the four row tiles
  the body stores make up ONE function of the block's index: at `(0, t, h)` the specification's `outK` at batch `b`,
  query row `t`, column `h`.  The four tiles start at rows 0, 512, 1024 and 1536 and cover the 2048 rows.
-/
import proofs.«129632_j81063212745013_2_alg».proof.Proof.KTile

set_option maxRecDepth 16384

noncomputable section

open scoped BigOperators

namespace Cert.KernelIdeal.KVal

open Idealize.ShloMosaic Idealize.ShloMosaic.ValueIdx Cert.KernelIdeal Cert.KernelIdeal.Gen Cert.KernelIdeal.Hand
open Cert.Attn

/-- The fused projection of the loaded blocks at `(t, j)`. -/
theorem fused_apply (v0 : Vec Ideal S1x2048x768 .f32) (v3 : Vec Ideal S768x192 .f32) (t : Fin 2048) (j : Fin 192) :
    k0_pay2 v0 v3 (ix2 t j) = ∑ c : Fin 768, v0 (ix3 (0 : Fin 1) t c) * v3 (ix2 c j) := by
  show matmul dot_S2048x768_S768x192_S2048x192_1_0_0_1_n_n none
      (truncf .bf16 (shapeCast S2048x768 v0 shapeCasts_S1x2048x768_S2048x768 : FVec Ideal S2048x768 .f32) bitsLt_bf16_f32)
      (truncf .bf16 (shapeCast S768x192 v3 shapeCasts_S768x192_S768x192 : FVec Ideal S768x192 .f32) bitsLt_bf16_f32)
      (constant S2048x192 .f32 0x00000000#32) (ix2 t j) = _
  refine (matmul_proj_apply _ _ t j).trans (Finset.sum_congr rfl fun c _ => ?_)
  refine congrArg₂ (· * ·) ?_ ?_
  · exact shapeCast_1ab_ab_apply v0 shapeCasts_S1x2048x768_S2048x768 t c
  · show shapeCast S768x192 v3 shapeCasts_S768x192_S768x192 (ix2 c j) = v3 (ix2 c j)
    rw [shapeCast_self]

theorem hz3 : (![0, 0, 0] : Fin 3 → Nat) = fun _ => 0 := funext fun a => by fin_cases a <;> rfl
theorem hz2 : (![0, 0] : Fin 2 → Nat) = fun _ => 0 := funext fun a => by fin_cases a <;> rfl

section Block

variable (x : SX.Idx → EReal) (wq wk wv : SW.Idx → EReal) (b : Fin 8)
  (x0 : Vec Ideal S1x2048x768 .f32) (x1 : Vec Ideal S768x192 .f32)
  (hx0 : ∀ (t : Fin 2048) (c : Fin 768), x0 (ix3 (0 : Fin 1) t c) = x (ix3 b t c))
  (hwq : ∀ (c : Fin 768) (h : Fin 64) (k : Fin 192), k.val = 0 + h.val → x1 (ix2 c k) = wq (ix2 c h))
  (hwk : ∀ (c : Fin 768) (h : Fin 64) (k : Fin 192), k.val = 64 + h.val → x1 (ix2 c k) = wk (ix2 c h))
  (hwv : ∀ (c : Fin 768) (h : Fin 64) (k : Fin 192), k.val = 128 + h.val → x1 (ix2 c k) = wv (ix2 c h))

include hx0 hwq in
theorem fused_q (t : Fin 2048) (h : Fin 64) (k : Fin 192) (hk : k.val = 0 + h.val) :
    k0_pay2 x0 x1 (ix2 t k) = proj x wq b t h := by
  rw [fused_apply]; unfold proj
  exact Finset.sum_congr rfl fun c _ => by rw [hx0 t c, hwq c h k hk]

include hx0 hwk in
theorem fused_k (t : Fin 2048) (h : Fin 64) (k : Fin 192) (hk : k.val = 64 + h.val) :
    k0_pay2 x0 x1 (ix2 t k) = proj x wk b t h := by
  rw [fused_apply]; unfold proj
  exact Finset.sum_congr rfl fun c _ => by rw [hx0 t c, hwk c h k hk]

include hx0 hwv in
theorem fused_v (t : Fin 2048) (h : Fin 64) (k : Fin 192) (hk : k.val = 128 + h.val) :
    k0_pay2 x0 x1 (ix2 t k) = proj x wv b t h := by
  rw [fused_apply]; unfold proj
  exact Finset.sum_congr rfl fun c _ => by rw [hx0 t c, hwv c h k hk]

/-- The four row tiles cover the block. -/
theorem cover_out (p0 p1 p2 p3 : Vec Ideal S1x512x64 .f32) (y : S1x2048x64.Idx) :
    ∃ pc ∈ ([⟨ro3, p0⟩, ⟨ro2, p1⟩, ⟨ro1, p2⟩, ⟨ro0, p3⟩] : List (View.Piece (Elt Ideal) S1x2048x64 .f32)), y ∈ pc.1.set :=
  View.cover_of_tiled [⟨ro3, p0⟩, ⟨ro2, p1⟩, ⟨ro1, p2⟩, ⟨ro0, p3⟩] S1x512x64.size (by rfl) y

/-- The block as one function of its index. -/
def blockFn (y : S1x2048x64.Idx) : EReal :=
  outK x wq wk wv b ⟨(y 1).val, (y 1).isLt⟩ ⟨(y 2).val, (y 2).isLt⟩

include hx0 hwq hwk hwv in
/-- A stored tile agrees with the block function on its rectangle. -/
theorem tile_piece (off : Nat) (hs : S2048x64.Slices ![off, 0] S512x64)
    (inb : ∀ a, (![0, off, 0] : Fin 3 → Nat) a + S1x512x64.size a ≤ S1x2048x64.size a)
    (z : Fin 1) (r : Fin 512) (h : Fin 64) :
    attnTile ![off, 0] hs (k0_pay2 x0 x1) (ix3 z r h)
      = blockFn x wq wk wv b ((Rect.unit (s := S1x2048x64) ![0, off, 0] S1x512x64.size inb).emb (ix3 z r h)) := by
  have hz : z = 0 := Subsingleton.elim _ _
  subst hz
  have h1 : off + 512 ≤ 2048 := inb 1
  have hr : off + r.val < 2048 := by have := r.isLt; omega
  refine (attnTile_apply x wq wk wv b (k0_pay2 x0 x1) (fused_q x wq b x0 x1 hx0 hwq) (fused_k x wk b x0 x1 hx0 hwk)
    (fused_v x wv b x0 x1 hx0 hwv) off hs r ⟨off + r.val, hr⟩ rfl h).trans ?_
  unfold blockFn
  congr 1
  · exact Fin.ext (by rw [Rect.emb_apply]; show off + r.val = off + 1 * r.val; omega)
  · exact Fin.ext (by rw [Rect.emb_apply]; show h.val = 0 + 1 * h.val; omega)

include hx0 hwq hwk hwv in
/-- What the body leaves in the output window's buffer is the block function. -/
theorem out2_apply (y : S1x2048x64.Idx) : out2 x0 x1 y = blockFn x wq wk wv b y := by
  unfold out2
  simp only [View.ld_unit_zero (S := S1x2048x768) hz3, View.ld_unit_zero (S := S768x192) hz2]
  refine View.canon_apply_of_pieces (blockFn x wq wk wv b) _ ?_ y (cover_out _ _ _ _ y)
  intro p hp x'
  simp only [List.mem_cons, List.mem_singleton, List.not_mem_nil, or_false] at hp
  rcases hp with rfl | rfl | rfl | rfl
  · obtain ⟨z, r, h, rfl⟩ : ∃ (z : Fin 1) (r : Fin 512) (h : Fin 64), x' = ix3 z r h := ⟨x' 0, x' 1, x' 2, eq_ix3 x'⟩
    rw [tile3_eq]
    exact tile_piece x wq wk wv b x0 x1 hx0 hwq hwk hwv 1536 slices_S2048x64_o1536_0_S512x64 inb_S1x2048x64_S1x512x64_0_1536_0 z r h
  · obtain ⟨z, r, h, rfl⟩ : ∃ (z : Fin 1) (r : Fin 512) (h : Fin 64), x' = ix3 z r h := ⟨x' 0, x' 1, x' 2, eq_ix3 x'⟩
    rw [tile2_eq]
    exact tile_piece x wq wk wv b x0 x1 hx0 hwq hwk hwv 1024 slices_S2048x64_o1024_0_S512x64 inb_S1x2048x64_S1x512x64_0_1024_0 z r h
  · obtain ⟨z, r, h, rfl⟩ : ∃ (z : Fin 1) (r : Fin 512) (h : Fin 64), x' = ix3 z r h := ⟨x' 0, x' 1, x' 2, eq_ix3 x'⟩
    rw [tile1_eq]
    exact tile_piece x wq wk wv b x0 x1 hx0 hwq hwk hwv 512 slices_S2048x64_o512_0_S512x64 inb_S1x2048x64_S1x512x64_0_512_0 z r h
  · obtain ⟨z, r, h, rfl⟩ : ∃ (z : Fin 1) (r : Fin 512) (h : Fin 64), x' = ix3 z r h := ⟨x' 0, x' 1, x' 2, eq_ix3 x'⟩
    rw [tile0_eq]
    exact tile_piece x wq wk wv b x0 x1 hx0 hwq hwk hwv 0 slices_S2048x64_o0_0_S512x64 inb_S1x2048x64_S1x512x64_0_0_0 z r h

end Block

end Cert.KernelIdeal.KVal

end
-- ==== Proof.KArray.lean ====
/-
  From the blocks to the whole result array.

  At region entry the weight window's array is the concatenation `[Wq | Wk | Wv]` along the columns, and the input
  array is as launched.  Grid point `t` works on batch `t`: its input block is batch `t` of the input array, its
  weight block is the whole concatenated weight, and what it writes back is batch `t` of the specification's result
  array `G`.  The eight blocks cover the array, so after the run the array is `G`.
-/
import proofs.«129632_j81063212745013_2_alg».proof.Proof.KBlock

set_option maxRecDepth 16384

noncomputable section

open scoped BigOperators

namespace Cert.KernelIdeal.KVal

open Idealize.ShloMosaic Idealize.ShloMosaic.TcCoe Idealize.SL.Sem Idealize.ShloMosaic.ValueIdx
open Cert.KernelIdeal Cert.KernelIdeal.Gen Cert.KernelIdeal.Hand
open Idealize.ShloMosaic.Pipeline (Dat)
open Cert.Attn

variable (m : (ℓ : Loc nD τ sig) → Buf (Elt Ideal) ℓ)

/-- The host operation before the region does not write the input array. -/
theorem V_x (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, Finset.mem_singleton]
    exact StableHlo.devRef_ne_of_ne (by decide)))

/-- The weight window's array at region entry: the three weights side by side. -/
theorem V_w (c : Dev nD) : (V m c main_v0 : S768x192.Idx → EReal)
    = concatenate S768x192 1 [⟨S768x64, m ((c : Thread nD τ).loc main_arg2)⟩, ⟨S768x64, m ((c : Thread nD τ).loc main_arg1)⟩,
        ⟨S768x64, m ((c : Thread nD τ).loc main_arg3)⟩] concatenates_S768x64_S768x64_S768x64_S768x192_d1 := by
  dsimp only [V, hostOps0]
  after_results
  rfl

/-- The three weights as the pieces of the concatenation. -/
abbrev wpieces (c : Dev nD) : List ((s : Shape) × (s.Idx → EReal)) :=
  [⟨S768x64, m ((c : Thread nD τ).loc main_arg2)⟩, ⟨S768x64, m ((c : Thread nD τ).loc main_arg1)⟩,
    ⟨S768x64, m ((c : Thread nD τ).loc main_arg3)⟩]

/-- Its three column bands. -/
theorem V_w_q (c : Dev nD) (k : Fin 768) (h : Fin 64) (j : Fin 192) (hj : j.val = 0 + h.val) :
    V m c main_v0 (ix2 k j) = m ((c : Thread nD τ).loc main_arg2) (ix2 k h) := by
  rw [V_w]
  exact concatenate_apply_piece (t := S768x192) (1 : Fin 2) (wpieces m c) concatenates_S768x64_S768x64_S768x64_S768x192_d1 (ix2 k j) 0 (by show (0 : ℕ) < 3; omega) S768x64 _ rfl rfl 0 rfl (ix2 k h)
    (fun b hb => by match b with | ⟨0, _⟩ => rfl | ⟨1, _⟩ => exact absurd rfl hb) (by show 0 + h.val = j.val; omega)

theorem V_w_k (c : Dev nD) (k : Fin 768) (h : Fin 64) (j : Fin 192) (hj : j.val = 64 + h.val) :
    V m c main_v0 (ix2 k j) = m ((c : Thread nD τ).loc main_arg1) (ix2 k h) := by
  rw [V_w]
  exact concatenate_apply_piece (t := S768x192) (1 : Fin 2) (wpieces m c) concatenates_S768x64_S768x64_S768x64_S768x192_d1 (ix2 k j) 1 (by show (1 : ℕ) < 3; omega) S768x64 _ rfl rfl 64 rfl (ix2 k h)
    (fun b hb => by match b with | ⟨0, _⟩ => rfl | ⟨1, _⟩ => exact absurd rfl hb) (by show 64 + h.val = j.val; omega)

theorem V_w_v (c : Dev nD) (k : Fin 768) (h : Fin 64) (j : Fin 192) (hj : j.val = 128 + h.val) :
    V m c main_v0 (ix2 k j) = m ((c : Thread nD τ).loc main_arg3) (ix2 k h) := by
  rw [V_w]
  exact concatenate_apply_piece (t := S768x192) (1 : Fin 2) (wpieces m c) concatenates_S768x64_S768x64_S768x64_S768x192_d1 (ix2 k j) 2 (by show (2 : ℕ) < 3; omega) S768x64 _ rfl rfl 128 rfl (ix2 k h)
    (fun b hb => by match b with | ⟨0, _⟩ => rfl | ⟨1, _⟩ => exact absurd rfl hb) (by show 128 + h.val = j.val; omega)

/-- The printed index maps over the grid: the input and output blocks move with the point along the batch axis, the
    weight block is the whole array. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem t_lt (t : Fin cfg0.N) : t.val < 8 := lt_of_lt_of_eq t.isLt N_0

/-- The input block at point `t` is batch `t` of the input array. -/
theorem iblk_x (c : Dev nD) (t : Fin cfg0.N) (r : Fin 2048) (k : Fin 768) :
    iblk m c 0 t (ix3 (0 : Fin 1) r k) = m ((c : Thread nD τ).loc main_arg0) (ix3 (⟨t.val, t_lt t⟩ : Fin 8) r k) := by
  obtain ⟨e0, e1, e2, -⟩ := idx_facts t
  show V m c main_arg0 (((cfg0.win 0).blk t).view.emb (ix3 (0 : Fin 1) r k)) = _
  rw [V_x]
  refine congrArg _ (funext fun a => Fin.ext ?_)
  match a with
  | ⟨0, _⟩ => show win0_0.index t (0 : Fin 3) * 1 + 1 * 0 = t.val; omega
  | ⟨1, _⟩ => show win0_0.index t (1 : Fin 3) * 2048 + 1 * r.val = r.val; omega
  | ⟨2, _⟩ => show win0_0.index t (2 : Fin 3) * 768 + 1 * k.val = k.val; omega

/-- The weight block at any point is the whole weight array. -/
theorem iblk_w (c : Dev nD) (t : Fin cfg0.N) (k : Fin 768) (j : Fin 192) :
    iblk m c 1 t (ix2 k j) = V m c main_v0 (ix2 k j) := by
  obtain ⟨-, -, -, e0, e1, -⟩ := idx_facts t
  show V m c main_v0 (((cfg0.win 1).blk t).view.emb (ix2 k j)) = _
  refine congrArg _ (funext fun a => Fin.ext ?_)
  match a with
  | ⟨0, _⟩ => show win0_1.index t (0 : Fin 2) * 768 + 1 * k.val = k.val; omega
  | ⟨1, _⟩ => show win0_1.index t (1 : Fin 2) * 192 + 1 * j.val = j.val; omega

/-- The result array of the specification, of the argument arrays as launched. -/
def Gout (c : Dev nD) : S8x2048x64.Idx → EReal :=
  G (m ((c : Thread nD τ).loc main_arg0)) (m ((c : Thread nD τ).loc main_arg2)) (m ((c : Thread nD τ).loc main_arg1))
    (m ((c : Thread nD τ).loc main_arg3))

/-- What point `t` writes back is block `t` of the specification's result. -/
theorem flushed_eq (c : Dev nD) (t : Fin cfg0.N) :
    (dats m 0 c).flushed 2 t = ((cfg0.win 2).blk t).view.read (Elt Ideal) (Gout m c) := by
  show (cfg0.win 2).cut (grid0.coords t) ((dats m 0 c).after 2 t) = _
  rw [after0_2]
  obtain ⟨-, -, -, -, -, e0, e1, e2⟩ := idx_facts t
  funext j
  show out2 (iblk m c 0 t) (iblk m c 1 t) ((cfg0.win 2).xinj (grid0.coords t) j)
    = Gout m c (((cfg0.win 2).blk t).view.emb j)
  rw [out2_apply (m ((c : Thread nD τ).loc main_arg0)) (m ((c : Thread nD τ).loc main_arg2))
    (m ((c : Thread nD τ).loc main_arg1)) (m ((c : Thread nD τ).loc main_arg3)) ⟨t.val, t_lt t⟩
    (iblk m c 0 t) (iblk m c 1 t) (iblk_x m c t)
    (fun k h j hj => (iblk_w m c t k j).trans (V_w_q m c k h j hj))
    (fun k h j hj => (iblk_w m c t k j).trans (V_w_k m c k h j hj))
    (fun k h j hj => (iblk_w m c t k j).trans (V_w_v m c k h j hj))]
  unfold blockFn Gout G
  have hj0' : (j 0).val < 1 := (j 0).isLt
  have hj0 : (j 0).val = 0 := by omega
  congr 1
  · exact Fin.ext (by show t.val = win0_2.index t (0 : Fin 3) * 1 + 1 * (j 0).val; omega)
  · exact Fin.ext (by show (j 1).val = win0_2.index t (1 : Fin 3) * 2048 + 1 * (j 1).val; omega)
  · exact Fin.ext (by show (j 2).val = win0_2.index t (2 : Fin 3) * 64 + 1 * (j 2).val; omega)

/-- An index of the array is in point `t`'s block iff each coordinate is in the block's range on its axis. -/
theorem mem_blk (t : Fin cfg0.N) (i : S8x2048x64.Idx) :
    i ∈ ((cfg0.win 2).blk t).view.set ↔ ∀ a : Fin 3, win0_2.index t a * S1x2048x64.size a ≤ (i a).val ∧ (i a).val < win0_2.index t a * S1x2048x64.size a + S1x2048x64.size a := by
  show i ∈ ((View.whole main_v1).slice (win0_2.rect t)).set ↔ _
  rw [View.set_slice_whole, Rect.mem_set_unit]
  exact Iff.rfl

/-- Every index of the array is in the block of the point its batch coordinate names. -/
theorem cover (i : S8x2048x64.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 64 := (i 2).isLt
  obtain ⟨t0, ht0⟩ : ∃ t0 : Fin cfg0.N, t0.val = (i 0).val := ⟨⟨(i 0).val, by rw [show cfg0.N = 8 from N_0]; exact hi0⟩, rfl⟩
  refine ⟨t0, flush0_2 _, ?_⟩
  obtain ⟨-, -, -, -, -, e0, e1, e2⟩ := idx_facts t0
  rw [mem_blk]
  intro a
  match a with
  | ⟨0, _⟩ => show win0_2.index t0 (0 : Fin 3) * 1 ≤ (i 0).val ∧ (i 0).val < win0_2.index t0 (0 : Fin 3) * 1 + 1; omega
  | ⟨1, _⟩ => show win0_2.index t0 (1 : Fin 3) * 2048 ≤ (i 1).val ∧ (i 1).val < win0_2.index t0 (1 : Fin 3) * 2048 + 2048; omega
  | ⟨2, _⟩ => show win0_2.index t0 (2 : Fin 3) * 64 ≤ (i 2).val ∧ (i 2).val < win0_2.index t0 (2 : Fin 3) * 64 + 64; omega

/-- The result array after the run is the specification's. -/
theorem final (c : Dev nD) : (dats m 0 c).arrAt 2 cfg0.N = Gout m c :=
  (dats m 0 c).arrAt_eq_of_cover 2 (Gout m c) (fun t _ => flushed_eq m c t) (cover)

end Cert.KernelIdeal.KVal

end
-- ==== Proof.RefValue.lean ====
/-
  The reference program's result, index by index, over the extended reals.

  The reference computes, stage by stage, the three projections, the scaled scores, each query row's
  maximum, the shifted exponentials, their row sum, the normalized weights and the weighted sum of the
  value rows.  Each stage read at an index with literal coordinates is the corresponding function of the
  specification; the last one is `outR`.
-/
import proofs.«129632_j81063212745013_2_alg».proof.Defs
import proofs.«129632_j81063212745013_2_alg».proof.Proof.Gen.ReferenceIdeal.Read
import proofs.«129632_j81063212745013_2_alg».proof.Proof.Spec
import Idealize.ShloMosaic.Lib.ValueIdx
import Idealize.ShloMosaic.PureOps.Reduce
import Idealize.ShloMosaic.PureOps.Ideal.Laws

noncomputable section

open scoped BigOperators

namespace Cert.Attn.Ref

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-- The type of the input array and of a weight array, as the stages take them. -/
abbrev XT : Type := (⟨S8x2048x768, .f32⟩ : BufTy).Contents (Elt Ideal)
abbrev WT : Type := (⟨S768x64, .f32⟩ : BufTy).Contents (Elt Ideal)

/-! ## The projections -/

/-- The key projection at (b, t, h). -/
theorem v0_apply (x : XT) (w : WT) (b : Fin 8) (t : Fin 2048) (h : Fin 64) :
    val_main_v0 (F := Ideal) x w (ix3 b t h) = proj x w b t h := by
  rw [val_main_v0_apply]
  unfold proj
  refine Finset.sum_congr rfl fun c _ => ?_
  have el : lidx_main_v0 (ix3 b t h) c = ix3 b t c :=
    funext fun a => Fin.ext (by match a with | ⟨0, _⟩ => rfl | ⟨1, _⟩ => rfl | ⟨2, _⟩ => rfl)
  have er : ridx_main_v0 (ix3 b t h) c = ix2 c h :=
    funext fun a => Fin.ext (by match a with | ⟨0, _⟩ => rfl | ⟨1, _⟩ => rfl)
  rw [el, er]

/-- The query projection at (b, t, h). -/
theorem v1_apply (x : XT) (w : WT) (b : Fin 8) (t : Fin 2048) (h : Fin 64) :
    val_main_v1 (F := Ideal) x w (ix3 b t h) = proj x w b t h := by
  rw [val_main_v1_apply]
  unfold proj
  refine Finset.sum_congr rfl fun c _ => ?_
  have el : lidx_main_v1 (ix3 b t h) c = ix3 b t c :=
    funext fun a => Fin.ext (by match a with | ⟨0, _⟩ => rfl | ⟨1, _⟩ => rfl | ⟨2, _⟩ => rfl)
  have er : ridx_main_v1 (ix3 b t h) c = ix2 c h :=
    funext fun a => Fin.ext (by match a with | ⟨0, _⟩ => rfl | ⟨1, _⟩ => rfl)
  rw [el, er]

/-- The value projection at (b, t, h). -/
theorem v2_apply (x : XT) (w : WT) (b : Fin 8) (t : Fin 2048) (h : Fin 64) :
    val_main_v2 (F := Ideal) x w (ix3 b t h) = proj x w b t h := by
  rw [val_main_v2_apply]
  unfold proj
  refine Finset.sum_congr rfl fun c _ => ?_
  have el : lidx_main_v2 (ix3 b t h) c = ix3 b t c :=
    funext fun a => Fin.ext (by match a with | ⟨0, _⟩ => rfl | ⟨1, _⟩ => rfl | ⟨2, _⟩ => rfl)
  have er : ridx_main_v2 (ix3 b t h) c = ix2 c h :=
    funext fun a => Fin.ext (by match a with | ⟨0, _⟩ => rfl | ⟨1, _⟩ => rfl)
  rw [el, er]

/-! ## The scaled scores -/

/-- The scaled score of query row `t` against key row `u`. -/
theorem v5_apply (x : XT) (wk wq : WT) (b : Fin 8) (t u : Fin 2048) :
    val_main_v5 (F := Ideal) x wk wq (ix3 b t u) = score x wq wk b t u := by
  rw [val_main_v5_apply, val_main_v3_apply, val_main_v4_apply, val_main_cst_apply, Ideal.mulf_def, Ideal.ofBits_def]
  unfold score scale
  refine congrArg (· * _) (Finset.sum_congr rfl fun k _ => ?_)
  have el : lidx_main_v3 (ix3 b t u) k = ix3 b t k :=
    funext fun a => Fin.ext (by match a with | ⟨0, _⟩ => rfl | ⟨1, _⟩ => rfl | ⟨2, _⟩ => rfl)
  have er : ridx_main_v3 (ix3 b t u) k = ix3 b u k :=
    funext fun a => Fin.ext (by match a with | ⟨0, _⟩ => rfl | ⟨1, _⟩ => rfl | ⟨2, _⟩ => rfl)
  rw [el, er, v1_apply, v0_apply]

/-! ## The row maximum -/

/-- The reduced index (b, t) with key row `k` put back on the last axis is (b, t, k). -/
theorem lift_ix (hr : S8x2048x2048.Reduces [2] S8x2048) (b : Fin 8) (t : Fin 2048) (k : Fin (S8x2048x2048.size 2)) :
    hr.lift (ix2 b t) k = ix3 b t (⟨k.val, k.isLt⟩ : Fin 2048) := by
  funext c; apply Fin.ext
  match c with | ⟨0, _⟩ => rfl | ⟨1, _⟩ => rfl | ⟨2, _⟩ => rfl

/-- The host's reduce with a maximum body over the key rows, from the initial value, is the fold of `max` from that
    value over the scores of the row. -/
theorem v6_apply (x : XT) (wk wq : WT) (b : Fin 8) (t : Fin 2048) :
    val_main_v6 (F := Ideal) x wk wq (ix2 b t) = rowmax x wq wk b t := by
  have hr : S8x2048x2048.Reduces [2] S8x2048 := by decide
  unfold val_main_v6
  rw [Host.reduce_eq_fold_single FloatOps.maximumf _ _ reducesTo_S8x2048x2048_S8x2048_d2 hr h_S_ (ix2 b t),
    val_main_cst_0_apply, Ideal.ofBits_def]
  unfold rowmax negInf
  have hf : (val_main_v5 (F := Ideal) x wk wq ∘ hr.lift (ix2 b t)) = fun u : Fin 2048 => score x wq wk b t u :=
    funext fun k => (congrArg (val_main_v5 (F := Ideal) x wk wq) (lift_ix hr b t k)).trans (v5_apply x wk wq b t _)
  exact congrArg (fun f => Finset.fold max (Ideal.ofBits .f32 0xFF800000#32) f (Finset.univ : Finset (Fin 2048))) hf

/-- The pointwise maximum with the fold's own initial value changes nothing: the fold is at least its initial value. -/
theorem v8_apply (x : XT) (wk wq : WT) (b : Fin 8) (t : Fin 2048) :
    val_main_v8 (F := Ideal) x wk wq (ix2 b t) = rowmax x wq wk b t := by
  rw [val_main_v8_apply, val_main_v7_apply, val_main_cst_1_apply, Ideal.maximumf_def, Ideal.ofBits_def, v6_apply]
  unfold rowmax negInf
  exact max_eq_right ((Finset.le_fold_max _).mpr (Or.inl le_rfl))

/-! ## The shifted exponentials, their row sum and the normalized weights -/

/-- The exponential of the score shifted by its row's maximum. -/
theorem v12_apply (x : XT) (wk wq : WT) (b : Fin 8) (t u : Fin 2048) :
    val_main_v12 (F := Ideal) x wk wq (ix3 b t u) = pexp x wq wk b t u := by
  have e : idx_main_v9 (idx_main_v10 (ix3 b t u)) = ix2 b t :=
    funext fun a => Fin.ext (by match a with | ⟨0, _⟩ => rfl | ⟨1, _⟩ => rfl)
  unfold pexp
  rw [val_main_v12_apply, val_main_v11_apply, val_main_v10_apply, val_main_v9_apply, e, v5_apply, v8_apply,
    Ideal.hostUnary_exp_def, Ideal.subf_def]

/-- The row sum of the shifted exponentials: the host's sum starts from the zero word. -/
theorem v13_apply (x : XT) (wk wq : WT) (b : Fin 8) (t : Fin 2048) :
    val_main_v13 (F := Ideal) x wk wq (ix2 b t) = lsum x wq wk b t := by
  unfold lsum
  rw [val_main_v13_apply, val_main_cst_2_apply, Ideal.ofBits_def, Ideal.ofBits_zero_f32, zero_add]
  refine Finset.sum_congr rfl fun k _ => ?_
  have e : idx_main_v13 (ix2 b t) k = ix3 b t k :=
    funext fun a => Fin.ext (by match a with | ⟨0, _⟩ => rfl | ⟨1, _⟩ => rfl | ⟨2, _⟩ => rfl)
  rw [e, v12_apply]

/-- A weight: the shifted exponential divided by its row's sum. -/
theorem v16_apply (x : XT) (wk wq : WT) (b : Fin 8) (t u : Fin 2048) :
    val_main_v16 (F := Ideal) x wk wq (ix3 b t u) = Ideal.div (pexp x wq wk b t u) (lsum x wq wk b t) := by
  have e : idx_main_v14 (idx_main_v15 (ix3 b t u)) = ix2 b t :=
    funext fun a => Fin.ext (by match a with | ⟨0, _⟩ => rfl | ⟨1, _⟩ => rfl)
  rw [val_main_v16_apply, val_main_v15_apply, val_main_v14_apply, e, v12_apply, v13_apply, Ideal.hostDivf_def]

/-! ## The result -/

/-- The weighted sum of the value rows at (b, t, h). -/
theorem v17_apply (x : XT) (wk wq wv : WT) (b : Fin 8) (t : Fin 2048) (h : Fin 64) :
    val_main_v17 (F := Ideal) x wk wq wv (ix3 b t h) = outR x wq wk wv b t h := by
  unfold outR
  rw [val_main_v17_apply]
  refine Finset.sum_congr rfl fun u _ => ?_
  have el : lidx_main_v17 (ix3 b t h) u = ix3 b t u :=
    funext fun a => Fin.ext (by match a with | ⟨0, _⟩ => rfl | ⟨1, _⟩ => rfl | ⟨2, _⟩ => rfl)
  have er : ridx_main_v17 (ix3 b t h) u = ix3 b u h :=
    funext fun a => Fin.ext (by match a with | ⟨0, _⟩ => rfl | ⟨1, _⟩ => rfl | ⟨2, _⟩ => rfl)
  rw [el, er, v16_apply, v2_apply]

/-- The reference's last stage is the specification's `outR`, index by index. -/
theorem result_eq (x : XT) (wk wq wv : WT) :
    val_main_v17 (F := Ideal) x wk wq wv = fun i => outR x wq wk wv (i 0) (i 1) (i 2) := by
  funext i
  obtain ⟨b, t, h, rfl⟩ : ∃ (b : Fin 8) (t : Fin 2048) (h : Fin 64), i = ix3 b t h := ⟨i 0, i 1, i 2, eq_ix3 i⟩
  exact v17_apply x wk wq wv b t h

/-! ## The run -/

/-- Every weakly fair execution of the reference terminates with its result array at `outR` of the argument arrays,
    index by index, and the argument arrays unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v17)
        = (fun i : Cert.ReferenceIdeal.S8x2048x64.Idx => Cert.Attn.outR
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg3))
            (i 0) (i 1) (i 2))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun r h c => ⟨(h c).1.trans ((val_main_v17_eq (F := Ideal) _ _ _ _).trans (result_eq _ _ _ _)), (h c).2⟩)
    (Cert.ReferenceIdeal.Value.run (F := Ideal) m' ρ')

/-- The reference runs and leaves its argument arrays unchanged: its run with the result dropped. -/
theorem frame [hPre_finite_inputs : Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Attn.Ref

end
-- ==== Proof.LibERealSum.lean ====
/-
  Sums of real numbers inside the extended reals.

  The coercion `ℝ → EReal` is additive, so it commutes with every finite sum: a finite sum of
  extended reals each of which is (the image of) a real number is the image of the real sum.  In
  particular such a sum is neither `⊥` nor `⊤`.
-/
import Mathlib.Data.EReal.Basic
import Mathlib.Algebra.BigOperators.Group.Finset.Basic

namespace Cert.Gcn.ERealSum

open scoped BigOperators

/-- The coercion of a finite sum of reals is the sum of the coercions, read from right to left:
    `∑ i ∈ s, (f i : EReal) = ((∑ i ∈ s, f i : ℝ) : EReal)`. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum whose terms are all real is real: if `g i = (f i : EReal)` on `s`, then
    `∑ i ∈ s, g i = ((∑ i ∈ s, f i : ℝ) : EReal)`. -/
theorem sum_eq_coe {ι : Type*} (s : Finset ι) (g : ι → EReal) (f : ι → ℝ)
    (h : ∀ i ∈ s, g i = ((f i : ℝ) : EReal)) :
    (∑ i ∈ s, g i) = ((∑ i ∈ s, f i : ℝ) : EReal) := by
  rw [Finset.sum_congr rfl h, sum_coe]

/-- A sum of `1`s over a finite set is its cardinality, as a real inside the extended reals. -/
theorem sum_one (ι : Type*) (s : Finset ι) :
    (∑ _i ∈ s, ((1 : ℝ) : EReal)) = (((s.card : ℕ) : ℝ) : EReal) := by
  rw [sum_coe s (fun _ => (1 : ℝ))]; simp

end Cert.Gcn.ERealSum
-- ==== Proof.Algebra.lean ====
/-
  Normalizing after the weighted sum, or every weight before it, gives the same attention output.

  With real inputs every quantity of an attention row is a real number sitting inside the extended
  reals: a projection is a finite sum of products of reals, a score is such a sum times the (real)
  scale, the row maximum is the largest of finitely many -- at least one -- real scores (the fold of
  `max` starts from `-∞ = ⊥`, which the first score absorbs), a shifted exponential is `exp` of a real,
  hence a positive real, and so the row sum `L` of the 2048 shifted exponentials is a positive real.
  Division by the nonzero real `L` is multiplication by the real `1 / L`, and then
  `(∑ u, p u * v u) * (1 * (1 / L)) = ∑ u, (p u * (1 / L)) * v u` is the distributive law in `ℝ`.
-/
import proofs.«129632_j81063212745013_2_alg».proof.Proof.Spec
import proofs.«129632_j81063212745013_2_alg».proof.Proof.LibERealSum

noncomputable section

open scoped BigOperators

namespace Cert.Attn

open Idealize.ShloMosaic Idealize.ShloMosaic.ValueIdx
open Cert.Gcn.ERealSum

/-! ### Extended reals that are real numbers -/

/-- An extended real that is (the image of) a real number. -/
def IsReal (a : EReal) : Prop := ∃ r : ℝ, a = (r : EReal)

/-- A product of two reals is real. -/
theorem isReal_mul {a b : EReal} (ha : IsReal a) (hb : IsReal b) : IsReal (a * b) := by
  obtain ⟨r, rfl⟩ := ha
  obtain ⟨s, rfl⟩ := hb
  exact ⟨r * s, (EReal.coe_mul r s).symm⟩

/-- A difference of two reals is real. -/
theorem isReal_sub {a b : EReal} (ha : IsReal a) (hb : IsReal b) : IsReal (a - b) := by
  obtain ⟨r, rfl⟩ := ha
  obtain ⟨s, rfl⟩ := hb
  exact ⟨r - s, (EReal.coe_sub r s).symm⟩

/-- A finite sum of reals is real. -/
theorem isReal_sum {ι : Type*} (s : Finset ι) (g : ι → EReal) (h : ∀ i, IsReal (g i)) :
    IsReal (∑ i ∈ s, g i) := by
  choose f hf using h
  exact ⟨∑ i ∈ s, f i, sum_eq_coe s g f (fun i _ => hf i)⟩

/-- The larger of two reals is one of them, hence real. -/
theorem isReal_max {a b : EReal} (ha : IsReal a) (hb : IsReal b) : IsReal (max a b) := by
  rcases max_choice a b with h | h
  · rw [h]; exact ha
  · rw [h]; exact hb

/-- The fold of `max` from `⊥` over a nonempty finite family of reals is real: the first member
    absorbs `⊥`, every further step takes the larger of two reals. -/
theorem isReal_fold_max {ι : Type*} (g : ι → EReal) (h : ∀ i, IsReal (g i)) (s : Finset ι)
    (hs : s.Nonempty) : IsReal (s.fold max ⊥ g) := by
  classical
  induction s using Finset.induction_on with
  | empty => exact absurd hs Finset.not_nonempty_empty
  | insert a s ha ih =>
    rw [Finset.fold_insert ha]
    rcases s.eq_empty_or_nonempty with rfl | hne
    · rw [Finset.fold_empty, max_bot_right]
      exact h a
    · exact isReal_max (h a) (ih hne)

/-! ### The three constants -/

/-- The score scale is a finite binary value, hence a real number. -/
theorem scale_isReal : IsReal scale := by
  have h1 : scale ≠ ⊤ := by simp [scale, Ideal.ofBits, Ideal.ieee, -EReal.coe_mul]
  have h2 : scale ≠ ⊥ := by simp [scale, Ideal.ofBits, Ideal.ieee, -EReal.coe_mul]
  exact ⟨scale.toReal, (EReal.coe_toReal h1 h2).symm⟩

/-- The starting value of the row maximum is `-∞`. -/
theorem negInf_eq : negInf = ⊥ := by simp [negInf, Ideal.ofBits, Ideal.ieee]

/-- The constant `one` is the number `1`. -/
theorem one_eq : one = 1 := by
  simp [one, Ideal.ofBits, Ideal.ieee, -EReal.coe_mul]; norm_num

/-! ### Every quantity of an attention row is real -/

section Row

variable (x : SX.Idx → EReal) (w wq wk wv : SW.Idx → EReal)

theorem proj_isReal (hx : ∀ i, IsReal (x i)) (hw : ∀ i, IsReal (w i))
    (b : Fin 8) (t : Fin 2048) (h : Fin 64) : IsReal (proj x w b t h) :=
  isReal_sum _ _ (fun c => isReal_mul (hx (ix3 b t c)) (hw (ix2 c h)))

theorem score_isReal (hx : ∀ i, IsReal (x i)) (hq : ∀ i, IsReal (wq i)) (hk : ∀ i, IsReal (wk i))
    (b : Fin 8) (t u : Fin 2048) : IsReal (score x wq wk b t u) :=
  isReal_mul
    (isReal_sum _ _ (fun h => isReal_mul (proj_isReal x wq hx hq b t h) (proj_isReal x wk hx hk b u h)))
    scale_isReal

theorem rowmax_isReal (hx : ∀ i, IsReal (x i)) (hq : ∀ i, IsReal (wq i)) (hk : ∀ i, IsReal (wk i))
    (b : Fin 8) (t : Fin 2048) : IsReal (rowmax x wq wk b t) := by
  unfold rowmax
  rw [negInf_eq]
  exact isReal_fold_max _ (fun u => score_isReal x wq wk hx hq hk b t u) _ Finset.univ_nonempty

/-- A shifted exponential is a positive real. -/
theorem pexp_pos_real (hx : ∀ i, IsReal (x i)) (hq : ∀ i, IsReal (wq i)) (hk : ∀ i, IsReal (wk i))
    (b : Fin 8) (t u : Fin 2048) : ∃ r : ℝ, 0 < r ∧ pexp x wq wk b t u = (r : EReal) := by
  obtain ⟨d, hd⟩ :=
    isReal_sub (score_isReal x wq wk hx hq hk b t u) (rowmax_isReal x wq wk hx hq hk b t)
  refine ⟨Real.exp d, Real.exp_pos d, ?_⟩
  unfold pexp
  rw [hd, Ideal.exp_coe]

/-- The row sum of the shifted exponentials is a positive real. -/
theorem lsum_pos_real (hx : ∀ i, IsReal (x i)) (hq : ∀ i, IsReal (wq i)) (hk : ∀ i, IsReal (wk i))
    (b : Fin 8) (t : Fin 2048) : ∃ L : ℝ, 0 < L ∧ lsum x wq wk b t = (L : EReal) := by
  choose p hp0 hp using fun u => pexp_pos_real x wq wk hx hq hk b t u
  refine ⟨∑ u, p u, Finset.sum_pos (fun u _ => hp0 u) Finset.univ_nonempty, ?_⟩
  unfold lsum
  exact sum_eq_coe _ _ p (fun u _ => hp u)

end Row

/-! ### The distributive law -/

/-- For real weights `p u`, real values `v u` and a nonzero real `L`: scaling the weighted sum by
    `1 / L` afterwards equals dividing every weight by `L` first. -/
theorem sum_mul_div_eq_sum_div_mul {ι : Type*} (s : Finset ι) (P V : ι → EReal) (p v : ι → ℝ)
    (L : ℝ) (hL : L ≠ 0) (hP : ∀ u, P u = (p u : EReal)) (hV : ∀ u, V u = (v u : EReal)) :
    (∑ u ∈ s, P u * V u) * Ideal.div 1 (L : EReal)
      = ∑ u ∈ s, Ideal.div (P u) (L : EReal) * V u := by
  have hl : (∑ u ∈ s, P u * V u) = ((∑ u ∈ s, p u * v u : ℝ) : EReal) :=
    sum_eq_coe s _ _ (fun u _ => by rw [hP u, hV u, EReal.coe_mul])
  have hr : (∑ u ∈ s, Ideal.div (P u) (L : EReal) * V u)
      = ((∑ u ∈ s, p u * (1 / L) * v u : ℝ) : EReal) :=
    sum_eq_coe s _ _ (fun u _ => by
      rw [Ideal.div_coe hL, hP u, hV u, EReal.coe_mul, EReal.coe_mul])
  rw [hl, hr, Ideal.div_coe hL, one_mul, ← EReal.coe_mul, Finset.sum_mul]
  congr 1
  exact Finset.sum_congr rfl (fun u _ => by ring)

/-! ### The two forms of the output agree -/

theorem outK_eq_outR (x : SX.Idx → EReal) (wq wk wv : SW.Idx → EReal)
    (hx : ∀ i, ∃ r : ℝ, x i = (r : EReal)) (hq : ∀ i, ∃ r : ℝ, wq i = (r : EReal))
    (hk : ∀ i, ∃ r : ℝ, wk i = (r : EReal)) (hv : ∀ i, ∃ r : ℝ, wv i = (r : EReal))
    (b : Fin 8) (t : Fin 2048) (h : Fin 64) :
    outK x wq wk wv b t h = outR x wq wk wv b t h := by
  choose p _ hp using fun u => pexp_pos_real x wq wk hx hq hk b t u
  choose v hv' using fun u => proj_isReal x wv hx hv b u h
  obtain ⟨L, hL0, hL⟩ := lsum_pos_real x wq wk hx hq hk b t
  unfold outK outR
  rw [hL, one_eq]
  exact sum_mul_div_eq_sum_div_mul Finset.univ _ _ p v L (ne_of_gt hL0) hp hv'

end Cert.Attn

end
-- ==== Proof.Finite.lean ====
/-
  The precondition, decoded: if the finiteness predicate of the four argument arrays is all ones, then every entry of
  every array is a real number.

  The predicate is the conjunction of four tests, one per array: |x| < +∞ at every entry, the entries' answers folded
  by `and` over all axes starting from 1. A fold by `and` that ends at 1 met only 1s, so the test holds at every index
  (the index set is never enumerated). At the extended reals the absolute value of x is max x (−x), the pattern
  0x7F800000 denotes ⊤, and the comparison is the order's own: max x (−x) < ⊤ fails at x = ⊤ and at x = ⊥ (since
  −⊥ = ⊤), so an entry that passes the test is a real.
-/
import proofs.«129632_j81063212745013_2_alg».proof.Pre_finite_inputs
import Idealize.ShloMosaic.PureOps.Ideal
import Idealize.ShloMosaic.Lib.ValueIdx
import Idealize.ShloMosaic.Lib.ReduceAll

noncomputable section

namespace Cert.Attn.Finite

open Idealize.ShloMosaic

/-- The rank-0 shape has one index. -/
instance : Subsingleton Cert.Pre_finite_inputs.S_.Idx := ⟨fun a b => funext fun d => d.elim0⟩

/-- An extended real whose absolute value max x (−x) is below ⊤ is a real: ⊤ fails by itself, ⊥ by its negation. -/
theorem real_of_abs_lt_top (x : EReal) (h : max x (-x) < ⊤) : ∃ r : ℝ, x = (r : EReal) := by
  obtain ⟨hx, hnx⟩ := max_lt_iff.1 h
  have h1 : x ≠ ⊤ := ne_of_lt hx
  have h2 : x ≠ ⊥ := by
    rintro rfl
    rw [EReal.neg_bot] at hnx
    exact lt_irrefl _ hnx
  exact ⟨x.toReal, (EReal.coe_toReal h1 h2).symm⟩

/-- The printed test at one entry: |x| < +∞ answered 1 says that x is a real. -/
theorem real_of_test (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  refine real_of_abs_lt_top x ?_
  by_contra hn
  simp [hn] at h

/-- If the finiteness predicate of the four argument arrays is all ones, every entry of every array is a real. -/
theorem real_of_pre [Cert.Pre_finite_inputs.Facts] (a0 : FVec Ideal Cert.Pre_finite_inputs.S8x2048x768 .f32) (a1 a2 a3 : FVec Ideal Cert.Pre_finite_inputs.S768x64 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1, Idealize.ShloMosaic.andi] at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_test (a0 i) (Host.reduce_andi_all _ _ _ _ _ e0 i),
    fun i => real_of_test (a1 i) (Host.reduce_andi_all _ _ _ _ _ e1 i),
    fun i => real_of_test (a2 i) (Host.reduce_andi_all _ _ _ _ _ e2 i),
    fun i => real_of_test (a3 i) (Host.reduce_andi_all _ _ _ _ _ e3 i)⟩

end Cert.Attn.Finite

end
-- ==== Proof.lean ====
/-
  Single-head softmax attention: a fused kernel against its plain reference, over the extended reals.

  The kernel works on one batch element per grid point.  It multiplies the batch's input block by the three
  projection weights laid side by side, cuts the product into query, key and value rows, and then, for each of four
  tiles of 512 query rows, forms the scaled scores against all key rows, subtracts each row's maximum, exponentiates,
  sums each row, multiplies the exponentials by the value rows and only then scales each row by the reciprocal of its
  sum.  The reference projects with three separate products, forms the same scaled scores for all rows at once,
  subtracts the row maximum, exponentiates, divides every exponential by its row's sum and then multiplies by the
  value rows.

  Element by element the two compute the same projections, scores, row maxima, exponentials and row sums — sums and
  maxima over the same index sets, whatever the tiling — and differ only in where the division by the row sum stands:
  `(∑ u, p u · v u) · (1 / L)` against `∑ u, (p u / L) · v u`.  Over the extended reals this exchange needs the
  terms to be real numbers and `L` to be a nonzero real, which is where the precondition (every input finite) is
  used: finite inputs make every projection and score real, the row maximum real, every exponential a positive real,
  and `L`, a sum of 2048 positive reals, a positive real.

  The three frames: both kernel programs run their one region to the end with the argument arrays untouched (the
  body's four stores cover the output block, the host concatenation before the region writes only its own result);
  the reference is a straight line of host operations.  The idealized kernel is the kernel's own text read over the
  extended reals: nothing to preserve.
-/
import proofs.«129632_j81063212745013_2_alg».proof.Defs
import proofs.«129632_j81063212745013_2_alg».proof.Proof.Gen.Kernel
import proofs.«129632_j81063212745013_2_alg».proof.Proof.Gen.KernelIdeal
import proofs.«129632_j81063212745013_2_alg».proof.Proof.Gen.ReferenceIdeal
import proofs.«129632_j81063212745013_2_alg».proof.Proof.Gen.Pre_finite_inputs
import proofs.«129632_j81063212745013_2_alg».proof.Proof.FrameK
import proofs.«129632_j81063212745013_2_alg».proof.Proof.FrameI
import proofs.«129632_j81063212745013_2_alg».proof.Proof.KArray
import proofs.«129632_j81063212745013_2_alg».proof.Proof.RefValue
import proofs.«129632_j81063212745013_2_alg».proof.Proof.Algebra
import proofs.«129632_j81063212745013_2_alg».proof.Proof.Finite

noncomputable section

namespace Cert.Proof

open Idealize.ShloMosaic Idealize.ShloMosaic.TcCoe Idealize.SL.Sem

/-! ## The frames -/

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := Cert.Attn.Ref.frame

/-- The idealized kernel is the kernel's text itself: no rewrite to account for. -/
theorem preserves : Cert.preserves_Kernel_KernelIdeal := trivial

/-! ## The kernel's run, with its result named -/

section KernelRun

open Cert.KernelIdeal Cert.KernelIdeal.Gen Cert.KernelIdeal.Hand Cert.KernelIdeal.KVal
open Idealize.ShloMosaic.Pipeline (Dat)

/-- The idealized kernel runs to the end; its result array is the specification's `G` of the arguments as launched
    (each grid point writes its batch's block of it, and the blocks cover the array), and the arguments are unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end KernelRun

/-! ## The two results agree -/

/-- From memories that agree on the arguments, the kernel's result `G` (normalization after the weighted sum) and
    the reference's (every weight normalized first) are the same array: the inputs are finite, so the exchange is
    real algebra. -/
theorem algebraic : Cert.algebraic_KernelIdeal_ReferenceIdeal := by
  intro m ρ m' ρ' hpre hagree
  refine ⟨fun c => Cert.KernelIdeal.KVal.Gout m c, kernel_run m ρ, ?_⟩
  refine (θ_run Cert.ReferenceIdeal.defs _ _).mono (fun r h c => ⟨(h c).1.trans ?_, (h c).2⟩)
    (Cert.Attn.Ref.run m' ρ')
  rw [(hagree c).1, (hagree c).2.1, (hagree c).2.2.1, (hagree c).2.2.2]
  obtain ⟨h0, h1, h2, h3⟩ := Cert.Attn.Finite.real_of_pre _ _ _ _ (hpre c)
  funext i
  exact (Cert.Attn.outK_eq_outR _ _ _ _ h0 h2 h1 h3 _ _ _).symm

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
